-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x256 .f32) (main_arg1 : IVec S2x1600000 32) (main_arg2 : FVec F S128x256 .f32) (main_arg3 : FVec F S128 .f32) (main_arg4 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S256x128 : Shape := ⟨2, ![256, 128]⟩
abbrev S100000x128 : Shape := ⟨2, ![100000, 128]⟩
abbrev S10000x256 : Shape := ⟨2, ![10000, 256]⟩
abbrev S10000x128 : Shape := ⟨2, ![10000, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 73
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128, .f32⟩
  | .hbm, ⟨4, _⟩ => ⟨S128, .f32⟩
  | .hbm, ⟨5, _⟩ => ⟨S256x128, .f32⟩
  | .hbm, ⟨6, _⟩ => ⟨S100000x128, .bf16⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .bf16⟩
  | .hbm, ⟨49, _⟩ => ⟨S1600000x128, .f32⟩
  | .hbm, ⟨50, _⟩ => ⟨S1600000x1, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x128, .f32⟩
  | .hbm, ⟨58, _⟩ => ⟨S100000, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .i1⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S100000x128, .f32⟩
  | .local _ .vmem, ⟨0, _⟩ => ⟨S10000x256, .f32⟩
  | .local _ .vmem, ⟨1, _⟩ => ⟨S10000x256, .f32⟩
  | .local _ .vmem, ⟨2, _⟩ => ⟨S256x128, .f32⟩
  | .local _ .vmem, ⟨3, _⟩ => ⟨S10000x128, .bf16⟩
  | .local _ .vmem, ⟨4, _⟩ => ⟨S10000x128, .bf16⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S128x256_S256x128_1_0 : S128x256.Transposes [1, 0] S256x128
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S10000x256_S256x128_S10000x128_1_0_0_1_n_n_wf : DotDims.WF S10000x256 S256x128 S10000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S256x128 : Shape := ⟨2, ![256, 128]⟩
abbrev S100000x128 : Shape := ⟨2, ![100000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128, .f32⟩
  | .hbm, ⟨4, _⟩ => ⟨S128, .f32⟩
  | .hbm, ⟨5, _⟩ => ⟨S256x128, .f32⟩
  | .hbm, ⟨6, _⟩ => ⟨S100000x128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .i1⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]

class Facts₀ : Prop where
  transposes_S128x256_S256x128_1_0 : S128x256.Transposes [1, 0] S256x128
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.FrameK.lean ====
/-
  The frame of the program `Kernel`, at any float instance: the program is one line of host arithmetic (the transpose
  of the weight matrix), one grid of ten points each multiplying a block of 10000 rows of the feature matrix by the
  transposed weight matrix, and then a tail of sixty-six lines of host arithmetic (degrees, normalisation, the
  gather / scatter over the edges, bias and the slope) that only read the product and never write it.

  What is shown: every weakly fair execution terminates without a fault; afterwards the product array holds, block
  by block, what the grid points stored; every buffer the grid does not stage holds what the tail's lines leave in
  it; and none of the five argument arrays is written by any line, so each ends as it was launched.
  The argument for "no line writes an argument" is a list: each line writes exactly one buffer, the sixty-six buffers
  written by the tail are listed once (`tailW`), and the arguments, the transposed weights and the product are not
  in the list.
-/
import proofs.«102632_j64244120814048_2_alg».proof.Proof.Gen.Kernel.Launch
import proofs.«102632_j64244120814048_2_alg».proof.Proof.Gen.Kernel.Skeleton
import proofs.«102632_j64244120814048_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its grid -/

/-- What a core's buffers hold when the grid starts: the launch contents after the one line before it
    (the transposed weights written, nothing else touched). -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No line allocates a buffer. -/
theorem head_fresh : (hostOps0 : List (HloOp τ sig (Elt F))).Forall fun op => op.fresh = ∅ := by
  simp only [List.Forall]; repeat' constructor
theorem tail1_fresh : (hostOps1 : List (HloOp τ sig (Elt F))).Forall fun op => op.fresh = ∅ := by
  simp only [List.Forall]; repeat' constructor
theorem tail2_fresh : (hostOps1_1 : List (HloOp τ sig (Elt F))).Forall fun op => op.fresh = ∅ := by
  simp only [List.Forall]; repeat' constructor

/-- The program is: the line before the grid, the grid, the two stretches of lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] (by simp only [List.Forall]; exact hostOps0_sub)
    (by simp only [List.Forall]; exact head_fresh) main_chain

/-! ## Which buffers the lines write -/

/-- The one buffer the line before the grid writes: the transposed weights. -/
abbrev headW : List (Ref sig .tc) := [main_v0]
/-- The sixty-six buffers the lines after the grid write, one per line, in order. -/
abbrev tailW : List (Ref sig .tc) := [main_v2, main_v3, main_v4, main_v5, main_cst, main_v6, main_cst_0, main_v7, main_v8, main_v9, main_cst_1, main_v10, main_v11, main_v12, main_c, main_v13, main_v14, main_c_2, main_v15, main_v16, main_v17, main_v18, main_v19, main_c_3, main_v20, main_v21, main_c_4, main_v22, main_v23, main_v24, main_v25, main_v26, main_v27, main_c_5, main_v28, main_v29, main_c_6, main_v30, main_v31, main_v32, main_v33, main_v34, main_v35, main_v36, main_v37, main_v38, main_cst_7, main_v39, main_v40, main_v41, main_v42, main_v43, main_v44, main_v45, main_v46, main_v47, main_v48, main_v49, main_v50, main_cst_8, main_v51, main_v52, main_v53, main_v54, main_v55, main_v56]

theorem head_writes : (hostOps0 : List (HloOp τ sig (Elt F))).Forall fun op => op.writes ⊆ (headW.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  exact List.mem_map_of_mem (by decide)
theorem tail1_writes : (hostOps1 : List (HloOp τ sig (Elt F))).Forall fun op => op.writes ⊆ (tailW.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem tail2_writes : (hostOps1_1 : List (HloOp τ sig (Elt F))).Forall fun op => op.writes ⊆ (tailW.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  exact List.mem_map_of_mem (by decide)

/-- Both stretches after the grid, as one line. -/
theorem tail_writes : (List.flatten [hostOps1, hostOps1_1] : List (HloOp τ sig (Elt F))).Forall fun op => op.writes ⊆ (tailW.map (Proc.devRef (τ := τ) .tc)).toFinset :=
  List.forall_iff_forall_mem.mpr fun op hop => by
    rw [List.flatten_cons, List.flatten_cons, List.flatten_nil, List.append_nil, List.mem_append] at hop
    rcases hop with h | h
    · exact (List.forall_iff_forall_mem.mp tail1_writes) op h
    · exact (List.forall_iff_forall_mem.mp tail2_writes) op h

/-- The three arrays the grid stages (features, transposed weights, product) are not written after it. -/
theorem arrays_not_tailW : ∀ w : Fin 3, Pipeline.arrRef spec0 w ∉ tailW := by decide

/-- The lines after the grid touch only unscoped buffers of the core. -/
theorem tail_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rw [List.mem_cons, List.mem_singleton] at hops
  rcases hops with rfl | rfl
  · exact Pipeline.sub_ucRefs op ((List.forall_iff_forall_mem.mp hostOps1_sub) op hop)
  · exact Pipeline.sub_ucRefs op ((List.forall_iff_forall_mem.mp hostOps1_1_sub) op hop)
theorem tail_fresh : ∀ ops ∈ ([hostOps1, hostOps1_1] : List (List (HloOp τ sig (Elt F)))), ∀ op ∈ ops, op.fresh = ∅ := by
  intro ops hops op hop
  rw [List.mem_cons, List.mem_singleton] at hops
  rcases hops with rfl | rfl
  · exact (List.forall_iff_forall_mem.mp tail1_fresh) op hop
  · exact (List.forall_iff_forall_mem.mp tail2_fresh) op hop
/-- And they write none of the grid's three arrays. -/
theorem tail_keeps : ∀ ops ∈ ([hostOps1, hostOps1_1] : List (List (HloOp τ sig (Elt F)))), ∀ op ∈ ops,
    ∀ w, Proc.devRef .tc (Pipeline.arrRef spec0 w) ∉ op.writes := by
  intro ops hops op hop w hw
  have hsubW : op.writes ⊆ (tailW.map (Proc.devRef (τ := τ) .tc)).toFinset := by
    rw [List.mem_cons, List.mem_singleton] at hops
    rcases hops with rfl | rfl
    · exact (List.forall_iff_forall_mem.mp tail1_writes) op hop
    · exact (List.forall_iff_forall_mem.mp tail2_writes) op hop
  obtain ⟨y, hy, he⟩ := List.mem_map.mp (List.mem_toFinset.mp (hsubW hw))
  exact arrays_not_tailW w (Proc.devRef_injective _ he ▸ hy)

/-- A buffer the line before the grid does not write is found by the grid as launched. -/
theorem V_keep (c : Dev nD) (r : Ref sig .tc) (h : r ∉ headW) : V m c r = m ((c : Thread nD τ).loc r) :=
  StableHlo.after_of_writes_sub (hostOps0 : List (HloOp τ sig (Elt F))) _ head_writes h

/-- A buffer that no line writes and the grid does not stage ends as launched. -/
theorem W_keep (dats : (p : Fin 1) → (c : Dev nD) → Dat τ (Elt F) Unit ℕ (UR sig nD τ) ℕ (cfgs p) c) (c : Dev nD)
    (r : Ref sig .tc) (h1 : r ∉ tailW) (h0 : r ∉ headW) (ha : ∀ w, Pipeline.arrRef spec0 w ≠ r) :
    Pipeline.afterTail₀ cfgs dats 0 (V0 m) [hostOps1, hostOps1_1] c r = m ((c : Thread nD τ).loc r) := by
  unfold Pipeline.afterTail₀
  rw [StableHlo.after_of_writes_sub _ _ tail_writes h1, Pipeline.withArrays_of_ne _ c (V0 m c) _ r ha]
  exact V_keep m c r h0

/-! ## The blocks -/

/-- Block `t` of the array of window `w`, as the grid finds the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole rectangles through which a grid point reads its two input blocks and writes its output block. -/
abbrev rX : Rect S10000x256 := Rect.unit (s := S10000x256) ![0, 0] S10000x256.size inb_S10000x256_S10000x256_0_0
abbrev rWt : Rect S256x128 := Rect.unit (s := S256x128) ![0, 0] S256x128.size inb_S256x128_S256x128_0_0
abbrev rH : Rect S10000x128 := Rect.unit (s := S10000x128) ![0, 0] S10000x128.size inb_S10000x128_S10000x128_0_0

/-- What one grid point leaves in its output block: the product of its block of 10000 feature rows with the
    transposed weights (the body's one store, of its one payload, through the whole rectangle). -/
def outBlk (x0 : Vec F S10000x256 .f32) (x1 : Vec F S256x128 .f32) : Vec F S10000x128 .bf16 :=
  View.canon [⟨rH, k0_pay1 (View.ld x0 rX) (View.ld x1 rWt)⟩]

/-- The one store covers the output block. -/
theorem outCover (p0 : Vec F S10000x128 .bf16) (y : S10000x128.Idx) :
    ∃ pc ∈ ([⟨rH, p0⟩] : List (View.Piece (Elt F) S10000x128 .bf16)), y ∈ pc.1.set :=
  View.cover_of_tiled [⟨rH, p0⟩] S10000x128.size (by rfl) y

/-! ## One grid point -/

set_option maxHeartbeats 1000000 in
/-- The body, holding its two input blocks at `x0`, `x1` and its output block at anything, ends holding the
    inputs unchanged and the output at `outBlk x0 x1`. -/
theorem sound_kernel (c : Dev nD) (E : Set ℕ) (i : grid0.Coords)
    (arg1 : Memref sig .tc .vmem S10000x256 .f32) (harg1 : arg1.IsWhole)
    (arg2 : Memref sig .tc .vmem S256x128 .f32) (harg2 : arg2.IsWhole)
    (arg3 : Memref sig .tc .vmem S10000x128 .bf16) (harg3 : arg3.IsWhole)
    (x0 : Vec F S10000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The grid's proof data -/

/-- The arrays as the grid finds them; after point `t` each input block in place and the output block at the
    product of the point's input blocks; nothing else owned or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outBlk (iblk m c 0 t) (iblk m c 1 t) := by dsimp only [dats]

/-- An input's staging buffer holds its block at every point, whether or not the point fetched it (an unfetched
    point has the same block index as the point before it). -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution terminates; at the end the three staged arrays hold what the grid's write-backs
    leave and every other unscoped buffer what the lines after the grid leave. -/
theorem run_main : θ_run defs (onTc (τ := τ) (main (F := F))) (s₀ m ρ)
    (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := tail_sub) (hfresh := tail_fresh) (hkeep := tail_keeps)
    (hmain := hmain m Variants.none) (hA := A_eq m) (hΦ := fun _ _ => rfl)

/-- The five argument arrays end as launched: the feature matrix is a staged input (never written back), the
    other four are staged by nothing and written by no line. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans ((((dats m 0 c).arrAt_in 0 rfl _).trans ((A_eq m c 0).trans (V_keep m c main_arg0 (by decide))))),
     ((h c).2 main_arg1 (Pipeline.mem_restRefs_of main_arg1 (by decide) (by decide))).trans (W_keep m (dats m) c main_arg1 (by decide) (by decide) (by decide)),
     ((h c).2 main_arg2 (Pipeline.mem_restRefs_of main_arg2 (by decide) (by decide))).trans (W_keep m (dats m) c main_arg2 (by decide) (by decide) (by decide)),
     ((h c).2 main_arg3 (Pipeline.mem_restRefs_of main_arg3 (by decide) (by decide))).trans (W_keep m (dats m) c main_arg3 (by decide) (by decide) (by decide)),
     ((h c).2 main_arg4 (Pipeline.mem_restRefs_of main_arg4 (by decide) (by decide))).trans (W_keep m (dats m) c main_arg4 (by decide) (by decide) (by decide))⟩)
    (run_main m ρ)

end Cert.Kernel.Fr

end
-- ==== Proof.FrameKI.lean ====
/-
  The frame of the program `KernelIdeal`, at any float instance: the program is one line of host arithmetic (the transpose
  of the weight matrix), one grid of ten points each multiplying a block of 10000 rows of the feature matrix by the
  transposed weight matrix, and then a tail of sixty-six lines of host arithmetic (degrees, normalisation, the
  gather / scatter over the edges, bias and the slope) that only read the product and never write it.

  What is shown: every weakly fair execution terminates without a fault; afterwards the product array holds, block
  by block, what the grid points stored; every buffer the grid does not stage holds what the tail's lines leave in
  it; and none of the five argument arrays is written by any line, so each ends as it was launched.
  The argument for "no line writes an argument" is a list: each line writes exactly one buffer, the sixty-six buffers
  written by the tail are listed once (`tailW`), and the arguments, the transposed weights and the product are not
  in the list.
-/
import proofs.«102632_j64244120814048_2_alg».proof.Proof.Gen.KernelIdeal.Launch
import proofs.«102632_j64244120814048_2_alg».proof.Proof.Gen.KernelIdeal.Skeleton
import proofs.«102632_j64244120814048_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its grid -/

/-- What a core's buffers hold when the grid starts: the launch contents after the one line before it
    (the transposed weights written, nothing else touched). -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No line allocates a buffer. -/
theorem head_fresh : (hostOps0 : List (HloOp τ sig (Elt F))).Forall fun op => op.fresh = ∅ := by
  simp only [List.Forall]; repeat' constructor
theorem tail1_fresh : (hostOps1 : List (HloOp τ sig (Elt F))).Forall fun op => op.fresh = ∅ := by
  simp only [List.Forall]; repeat' constructor
theorem tail2_fresh : (hostOps1_1 : List (HloOp τ sig (Elt F))).Forall fun op => op.fresh = ∅ := by
  simp only [List.Forall]; repeat' constructor

/-- The program is: the line before the grid, the grid, the two stretches of lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] (by simp only [List.Forall]; exact hostOps0_sub)
    (by simp only [List.Forall]; exact head_fresh) main_chain

/-! ## Which buffers the lines write -/

/-- The one buffer the line before the grid writes: the transposed weights. -/
abbrev headW : List (Ref sig .tc) := [main_v0]
/-- The sixty-six buffers the lines after the grid write, one per line, in order. -/
abbrev tailW : List (Ref sig .tc) := [main_v2, main_v3, main_v4, main_v5, main_cst, main_v6, main_cst_0, main_v7, main_v8, main_v9, main_cst_1, main_v10, main_v11, main_v12, main_c, main_v13, main_v14, main_c_2, main_v15, main_v16, main_v17, main_v18, main_v19, main_c_3, main_v20, main_v21, main_c_4, main_v22, main_v23, main_v24, main_v25, main_v26, main_v27, main_c_5, main_v28, main_v29, main_c_6, main_v30, main_v31, main_v32, main_v33, main_v34, main_v35, main_v36, main_v37, main_v38, main_cst_7, main_v39, main_v40, main_v41, main_v42, main_v43, main_v44, main_v45, main_v46, main_v47, main_v48, main_v49, main_v50, main_cst_8, main_v51, main_v52, main_v53, main_v54, main_v55, main_v56]

theorem head_writes : (hostOps0 : List (HloOp τ sig (Elt F))).Forall fun op => op.writes ⊆ (headW.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  exact List.mem_map_of_mem (by decide)
theorem tail1_writes : (hostOps1 : List (HloOp τ sig (Elt F))).Forall fun op => op.writes ⊆ (tailW.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem tail2_writes : (hostOps1_1 : List (HloOp τ sig (Elt F))).Forall fun op => op.writes ⊆ (tailW.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  exact List.mem_map_of_mem (by decide)

/-- Both stretches after the grid, as one line. -/
theorem tail_writes : (List.flatten [hostOps1, hostOps1_1] : List (HloOp τ sig (Elt F))).Forall fun op => op.writes ⊆ (tailW.map (Proc.devRef (τ := τ) .tc)).toFinset :=
  List.forall_iff_forall_mem.mpr fun op hop => by
    rw [List.flatten_cons, List.flatten_cons, List.flatten_nil, List.append_nil, List.mem_append] at hop
    rcases hop with h | h
    · exact (List.forall_iff_forall_mem.mp tail1_writes) op h
    · exact (List.forall_iff_forall_mem.mp tail2_writes) op h

/-- The three arrays the grid stages (features, transposed weights, product) are not written after it. -/
theorem arrays_not_tailW : ∀ w : Fin 3, Pipeline.arrRef spec0 w ∉ tailW := by decide

/-- The lines after the grid touch only unscoped buffers of the core. -/
theorem tail_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rw [List.mem_cons, List.mem_singleton] at hops
  rcases hops with rfl | rfl
  · exact Pipeline.sub_ucRefs op ((List.forall_iff_forall_mem.mp hostOps1_sub) op hop)
  · exact Pipeline.sub_ucRefs op ((List.forall_iff_forall_mem.mp hostOps1_1_sub) op hop)
theorem tail_fresh : ∀ ops ∈ ([hostOps1, hostOps1_1] : List (List (HloOp τ sig (Elt F)))), ∀ op ∈ ops, op.fresh = ∅ := by
  intro ops hops op hop
  rw [List.mem_cons, List.mem_singleton] at hops
  rcases hops with rfl | rfl
  · exact (List.forall_iff_forall_mem.mp tail1_fresh) op hop
  · exact (List.forall_iff_forall_mem.mp tail2_fresh) op hop
/-- And they write none of the grid's three arrays. -/
theorem tail_keeps : ∀ ops ∈ ([hostOps1, hostOps1_1] : List (List (HloOp τ sig (Elt F)))), ∀ op ∈ ops,
    ∀ w, Proc.devRef .tc (Pipeline.arrRef spec0 w) ∉ op.writes := by
  intro ops hops op hop w hw
  have hsubW : op.writes ⊆ (tailW.map (Proc.devRef (τ := τ) .tc)).toFinset := by
    rw [List.mem_cons, List.mem_singleton] at hops
    rcases hops with rfl | rfl
    · exact (List.forall_iff_forall_mem.mp tail1_writes) op hop
    · exact (List.forall_iff_forall_mem.mp tail2_writes) op hop
  obtain ⟨y, hy, he⟩ := List.mem_map.mp (List.mem_toFinset.mp (hsubW hw))
  exact arrays_not_tailW w (Proc.devRef_injective _ he ▸ hy)

/-- A buffer the line before the grid does not write is found by the grid as launched. -/
theorem V_keep (c : Dev nD) (r : Ref sig .tc) (h : r ∉ headW) : V m c r = m ((c : Thread nD τ).loc r) :=
  StableHlo.after_of_writes_sub (hostOps0 : List (HloOp τ sig (Elt F))) _ head_writes h

/-- A buffer that no line writes and the grid does not stage ends as launched. -/
theorem W_keep (dats : (p : Fin 1) → (c : Dev nD) → Dat τ (Elt F) Unit ℕ (UR sig nD τ) ℕ (cfgs p) c) (c : Dev nD)
    (r : Ref sig .tc) (h1 : r ∉ tailW) (h0 : r ∉ headW) (ha : ∀ w, Pipeline.arrRef spec0 w ≠ r) :
    Pipeline.afterTail₀ cfgs dats 0 (V0 m) [hostOps1, hostOps1_1] c r = m ((c : Thread nD τ).loc r) := by
  unfold Pipeline.afterTail₀
  rw [StableHlo.after_of_writes_sub _ _ tail_writes h1, Pipeline.withArrays_of_ne _ c (V0 m c) _ r ha]
  exact V_keep m c r h0

/-! ## The blocks -/

/-- Block `t` of the array of window `w`, as the grid finds the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole rectangles through which a grid point reads its two input blocks and writes its output block. -/
abbrev rX : Rect S10000x256 := Rect.unit (s := S10000x256) ![0, 0] S10000x256.size inb_S10000x256_S10000x256_0_0
abbrev rWt : Rect S256x128 := Rect.unit (s := S256x128) ![0, 0] S256x128.size inb_S256x128_S256x128_0_0
abbrev rH : Rect S10000x128 := Rect.unit (s := S10000x128) ![0, 0] S10000x128.size inb_S10000x128_S10000x128_0_0

/-- What one grid point leaves in its output block: the product of its block of 10000 feature rows with the
    transposed weights (the body's one store, of its one payload, through the whole rectangle). -/
def outBlk (x0 : Vec F S10000x256 .f32) (x1 : Vec F S256x128 .f32) : Vec F S10000x128 .bf16 :=
  View.canon [⟨rH, k0_pay1 (View.ld x0 rX) (View.ld x1 rWt)⟩]

/-- The one store covers the output block. -/
theorem outCover (p0 : Vec F S10000x128 .bf16) (y : S10000x128.Idx) :
    ∃ pc ∈ ([⟨rH, p0⟩] : List (View.Piece (Elt F) S10000x128 .bf16)), y ∈ pc.1.set :=
  View.cover_of_tiled [⟨rH, p0⟩] S10000x128.size (by rfl) y

/-! ## One grid point -/

set_option maxHeartbeats 1000000 in
/-- The body, holding its two input blocks at `x0`, `x1` and its output block at anything, ends holding the
    inputs unchanged and the output at `outBlk x0 x1`. -/
theorem sound_kernel (c : Dev nD) (E : Set ℕ) (i : grid0.Coords)
    (arg1 : Memref sig .tc .vmem S10000x256 .f32) (harg1 : arg1.IsWhole)
    (arg2 : Memref sig .tc .vmem S256x128 .f32) (harg2 : arg2.IsWhole)
    (arg3 : Memref sig .tc .vmem S10000x128 .bf16) (harg3 : arg3.IsWhole)
    (x0 : Vec F S10000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The grid's proof data -/

/-- The arrays as the grid finds them; after point `t` each input block in place and the output block at the
    product of the point's input blocks; nothing else owned or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outBlk (iblk m c 0 t) (iblk m c 1 t) := by dsimp only [dats]

/-- An input's staging buffer holds its block at every point, whether or not the point fetched it (an unfetched
    point has the same block index as the point before it). -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution terminates; at the end the three staged arrays hold what the grid's write-backs
    leave and every other unscoped buffer what the lines after the grid leave. -/
theorem run_main : θ_run defs (onTc (τ := τ) (main (F := F))) (s₀ m ρ)
    (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := tail_sub) (hfresh := tail_fresh) (hkeep := tail_keeps)
    (hmain := hmain m Variants.none) (hA := A_eq m) (hΦ := fun _ _ => rfl)

/-- The five argument arrays end as launched: the feature matrix is a staged input (never written back), the
    other four are staged by nothing and written by no line. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans ((((dats m 0 c).arrAt_in 0 rfl _).trans ((A_eq m c 0).trans (V_keep m c main_arg0 (by decide))))),
     ((h c).2 main_arg1 (Pipeline.mem_restRefs_of main_arg1 (by decide) (by decide))).trans (W_keep m (dats m) c main_arg1 (by decide) (by decide) (by decide)),
     ((h c).2 main_arg2 (Pipeline.mem_restRefs_of main_arg2 (by decide) (by decide))).trans (W_keep m (dats m) c main_arg2 (by decide) (by decide) (by decide)),
     ((h c).2 main_arg3 (Pipeline.mem_restRefs_of main_arg3 (by decide) (by decide))).trans (W_keep m (dats m) c main_arg3 (by decide) (by decide) (by decide)),
     ((h c).2 main_arg4 (Pipeline.mem_restRefs_of main_arg4 (by decide) (by decide))).trans (W_keep m (dats m) c main_arg4 (by decide) (by decide) (by decide))⟩)
    (run_main m ρ)

end Cert.KernelIdeal.Fr

end
-- ==== Proof.KerTailDefs.lean ====
/-
  What the lines after the grid compute, as one function of the four arrays they read: the edge list, the product
  h = x · Wᵀ the grid left, the bias and the slope.

  With s(e), d(e) the two rows of the edge list:
    deg  = (number of edges arriving at each node) + 1,          dinv = deg^(-1/2),
    norm(e) = dinv(s e) · dinv(d e),                              msg(e, ·) = h(s e, ·) · norm(e),
    agg  = (msg scattered with addition to the targets) + h · dinv²   (the self-loop term, added once per node),
    pre  = agg + bias,                                            out = pre where pre > 0, slope · pre elsewhere.
  These are the definitions only; that the sixty-six lines compute this function is shown where they are run.
-/
import proofs.«102632_j64244120814048_2_alg».proof.Proof.Gen.KernelIdeal.Launch
import Idealize.ShloMosaic.Lib.StableHlo.Run
import Idealize.ShloMosaic.PureOps.Ideal

noncomputable section

namespace Cert.KernelIdeal.Tail

open Idealize.ShloMosaic Idealize.ShloMosaic.TcCoe Idealize.SL.Sem Idealize.ShloMosaic.StableHlo
open Cert.KernelIdeal Cert.KernelIdeal.Gen

abbrev EdgeList := IVec S2x1600000 32
abbrev Words := IVec S1600000 32
abbrev NodeVec := FVec Ideal S100000 .f32
abbrev NodeTab := FVec Ideal S100000x128 .f32
abbrev ChanVec := FVec Ideal S128 .f32
/-- The product as the grid stores it (the narrower float format; the same extended reals). -/
abbrev HTab := FVec Ideal S100000x128 .bf16

/-- Row 0 of the edge list: the sources. -/
def srcOf (ei : EdgeList) : Words :=
  shapeCast _ (extractStridedSlice S1x1600000 ![0, 0] ei slices_S2x1600000_S1x1600000_0_0) shapeCasts_S1x1600000_S1600000
/-- Row 1 of the edge list: the targets. -/
def dstOf (ei : EdgeList) : Words :=
  shapeCast _ (extractStridedSlice S1x1600000 ![1, 0] ei slices_S2x1600000_S1x1600000_1_0) shapeCasts_S1x1600000_S1600000

/-- A negative word wrapped from the end. -/
def wrapOf (v : Words) : Words :=
  select (cmpi .slt v (broadcastInDim S1600000 ![] bcast_S_S1600000 (constantI S_ 32 0#32)))
    (addi v (broadcastInDim S1600000 ![] bcast_S_S1600000 (constantI S_ 32 100000#32))) v

/-- A vector of words as a column of start indices. -/
abbrev colOf (v : Words) : IVec S1600000x1 32 :=
  broadcastInDim S1600000x1 ![0] bcast_S1600000_S1600000x1_0 v

/-- The degrees, self-loop included. -/
def degOf (ei : EdgeList) : NodeVec :=
  addf (F := Ideal) (Host.scatterAdd (F := Ideal) scatter_S100000_S1600000x1_S1600000_n_0_0_1
      (broadcastInDim S100000 ![] bcast_S_S100000 (constant (F := Ideal) S_ .f32 0x00000000#32))
      (colOf (dstOf ei))
      (broadcastInDim S1600000 ![] bcast_S_S1600000 (constant (F := Ideal) S_ .f32 0x3F800000#32)))
    (broadcastInDim S100000 ![] bcast_S_S100000 (constant (F := Ideal) S_ .f32 0x3F800000#32))

/-- Their inverse square roots. -/
def dinvOf (ei : EdgeList) : NodeVec := Host.rsqrt (F := Ideal) (degOf ei)

/-- The messages scattered to their targets. -/
def sentOf (ei : EdgeList) (h : HTab) : NodeTab :=
  Host.scatterAdd (F := Ideal) scatter_S100000x128_S1600000x1_S1600000x128_1_0_0_1
    (broadcastInDim S100000x128 ![] bcast_S_S100000x128 (constant (F := Ideal) S_ .f32 0x00000000#32))
    (colOf (dstOf ei))
    (mulf (F := Ideal) (extf (F := Ideal) .f32 (Host.gather gather_S100000x128_S1600000x1_S1600000x128_1_0_n_n_0_1_1128
          h (colOf (wrapOf (srcOf ei)))) bitsLt_bf16_f32)
      (broadcastInDim S1600000x128 ![0, 1] bcast_S1600000x1_S1600000x128_0_1
        (broadcastInDim S1600000x1 ![0] bcast_S1600000_S1600000x1_0
          (mulf (F := Ideal) (Host.gather gather_S100000_S1600000x1_S1600000_n_0_n_n_0_1_1 (dinvOf ei) (colOf (wrapOf (srcOf ei))))
            (Host.gather gather_S100000_S1600000x1_S1600000_n_0_n_n_0_1_1 (dinvOf ei) (colOf (wrapOf (dstOf ei))))))))

/-- The self-loop term: each node's own row, times its squared inverse root degree. -/
def selfOf (ei : EdgeList) (h : HTab) : NodeTab :=
  mulf (F := Ideal) (extf (F := Ideal) .f32 h bitsLt_bf16_f32)
    (broadcastInDim S100000x128 ![0, 1] bcast_S100000x1_S100000x128_0_1
      (broadcastInDim S100000x1 ![0] bcast_S100000_S100000x1_0 (mulf (F := Ideal) (dinvOf ei) (dinvOf ei))))

/-- Bias, then the slope on the entries that are not positive. -/
def actOf (agg : NodeTab) (b a : ChanVec) : NodeTab :=
  select
    (cmpf (F := Ideal) .ogt (addf (F := Ideal) agg (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32)))
    (addf (F := Ideal) agg (broadcastInDim S100000x128 ![0, 1] bcast_S1x128_S100000x128_0_1 (broadcastInDim S1x128 ![1] bcast_S128_S1x128_1 b)))
    (mulf (F := Ideal) (broadcastInDim S100000x128 ![0, 1] bcast_S1x128_S100000x128_0_1 (broadcastInDim S1x128 ![1] bcast_S128_S1x128_1 a))
      (addf (F := Ideal) agg (broadcastInDim S100000x128 ![0, 1] bcast_S1x128_S100000x128_0_1 (broadcastInDim S1x128 ![1] bcast_S128_S1x128_1 b))))

/-- The whole tail. -/
def outOf (ei : EdgeList) (h : HTab) (b a : ChanVec) : NodeTab :=
  actOf (addf (F := Ideal) (sentOf ei h) (selfOf ei h)) b a

end Cert.KernelIdeal.Tail

end
-- ==== Proof.KerTail.lean ====
/-
  The lines after the grid, run from any contents of the device's buffers, leave in the result buffer the tail's
  function (KerTailDefs) of the contents at the edge list, the product, the bias and the slope: each line writes its own
  buffer with its operation applied to the buffers it reads, and reading the chain back from the result buffer gives
  the function, line by line.
-/
import proofs.«102632_j64244120814048_2_alg».proof.Proof.KerTailDefs

noncomputable section

namespace Cert.KernelIdeal.Tail

open Idealize.ShloMosaic Idealize.ShloMosaic.TcCoe Idealize.SL.Sem Idealize.ShloMosaic.StableHlo
open Cert.KernelIdeal Cert.KernelIdeal.Gen

/-- The aggregate with the bias added, as the lines compute it. -/
abbrev preOf (ei : EdgeList) (h : HTab) (b : ChanVec) : NodeTab :=
  addf (F := Ideal) (addf (F := Ideal) (sentOf ei h) (selfOf ei h))
    (broadcastInDim S100000x128 ![0, 1] bcast_S1x128_S100000x128_0_1 (broadcastInDim S1x128 ![1] bcast_S128_S1x128_1 b))

/-- Two lines run one after the other: the second from what the first leaves. -/
theorem after_app : ∀ (l₁ l₂ : List (HloOp τ sig (Elt Ideal))) (V : Valuation τ sig (Elt Ideal)),
    StableHlo.after (l₁ ++ l₂) V = StableHlo.after l₂ (StableHlo.after l₁ V)
  | [], _, _ => rfl
  | op :: l, l₂, V => by rw [List.cons_append, StableHlo.after_cons, StableHlo.after_cons, after_app l l₂]

section
variable (W : Valuation τ sig (Elt Ideal))

set_option maxHeartbeats 4000000 in
/-- The buffer of the biased aggregate after the first stretch of lines. -/
theorem pre_value :
    StableHlo.after (hostOps1 : List (HloOp τ sig (Elt Ideal))) W (Proc.devRef .tc main_v50)
      = preOf (W (Proc.devRef .tc main_arg1)) (W (Proc.devRef .tc main_v1)) (W (Proc.devRef .tc main_arg3)) := by
  after_results_simp
  unfold preOf sentOf selfOf dinvOf degOf wrapOf srcOf dstOf
  rfl

set_option maxHeartbeats 4000000 in
/-- The buffer of the comparison with zero. -/
theorem pos_value :
    StableHlo.after (hostOps1 : List (HloOp τ sig (Elt Ideal))) W (Proc.devRef .tc main_v52)
      = cmpf (F := Ideal) .ogt (preOf (W (Proc.devRef .tc main_arg1)) (W (Proc.devRef .tc main_v1)) (W (Proc.devRef .tc main_arg3)))
          (broadcastInDim S100000x128 ![] bcast_S_S100000x128 (constant (F := Ideal) S_ .f32 0x00000000#32)) := by
  after_results_simp
  unfold preOf sentOf selfOf dinvOf degOf wrapOf srcOf dstOf
  rfl

set_option maxHeartbeats 4000000 in
/-- The buffer of the sloped values. -/
theorem neg_value :
    StableHlo.after (hostOps1 : List (HloOp τ sig (Elt Ideal))) W (Proc.devRef .tc main_v55)
      = mulf (F := Ideal) (broadcastInDim S100000x128 ![0, 1] bcast_S1x128_S100000x128_0_1 (broadcastInDim S1x128 ![1] bcast_S128_S1x128_1 (W (Proc.devRef .tc main_arg4))))
          (preOf (W (Proc.devRef .tc main_arg1)) (W (Proc.devRef .tc main_v1)) (W (Proc.devRef .tc main_arg3))) := by
  after_results_simp
  unfold preOf sentOf selfOf dinvOf degOf wrapOf srcOf dstOf
  rfl

/-- Reading a buffer at its declared type changes nothing (the declared type is the buffer's). -/
theorem c56 (v : (⟨S100000x128, .f32⟩ : BufTy).Contents (Elt Ideal)) :
    (StableHlo.TRef.of main_v56 : StableHlo.TRef sig ⟨S100000x128, .f32⟩).toBuf v = v := rfl
theorem c50 (v : (Proc.devRef (τ := τ) .tc main_v50).ty.Contents (Elt Ideal)) :
    (StableHlo.TRef.of main_v50 : StableHlo.TRef sig ⟨S100000x128, .f32⟩).ofBuf v = v := rfl
theorem c52 (v : (Proc.devRef (τ := τ) .tc main_v52).ty.Contents (Elt Ideal)) :
    (StableHlo.TRef.of main_v52 : StableHlo.TRef sig ⟨S100000x128, .i1⟩).ofBuf v = v := rfl
theorem c55 (v : (Proc.devRef (τ := τ) .tc main_v55).ty.Contents (Elt Ideal)) :
    (StableHlo.TRef.of main_v55 : StableHlo.TRef sig ⟨S100000x128, .f32⟩).ofBuf v = v := rfl

/-- The result buffer after both stretches, from any contents `W` of the device's buffers. -/
theorem tail_value :
    StableHlo.after (List.flatten [(hostOps1 : List (HloOp τ sig (Elt Ideal))), hostOps1_1]) W (Proc.devRef .tc main_v56)
      = outOf (W (Proc.devRef .tc main_arg1)) (W (Proc.devRef .tc main_v1)) (W (Proc.devRef .tc main_arg3)) (W (Proc.devRef .tc main_arg4)) := by
  have hfl : List.flatten [(hostOps1 : List (HloOp τ sig (Elt Ideal))), hostOps1_1] = hostOps1 ++ hostOps1_1 := by
    simp only [List.flatten_cons, List.flatten_nil, List.append_nil]
  rw [hfl, after_app]
  have h50 := pre_value W
  have h52 := pos_value W
  have h55 := neg_value W
  generalize StableHlo.after (hostOps1 : List (HloOp τ sig (Elt Ideal))) W = W1 at h50 h52 h55 ⊢
  after_results
  rw [h50, h52, h55, c56, c52, c50, c55]
  rfl

end

end Cert.KernelIdeal.Tail

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.KerMatmul.lean ====
/-
  The product the grid leaves, as one whole array: entry (n, j) of the [100000, 128] array is

      Σ_{k < 256} x(n, k) · wt(k, j),

  x the feature matrix and wt the transposed weight matrix as the grid finds them.

  Grid point t multiplies rows 10000·t … 10000·t + 9999 of x by the whole of wt and writes rows 10000·t … of the result
  (a change of float format is the identity at the ideal values, and the product into the zero accumulator is the plain
  sum).  Row n is written by point n / 10000, so the ten blocks fill the array.
-/
import proofs.«102632_j64244120814048_2_alg».proof.Proof.FrameKI
import proofs.«102632_j64244120814048_2_alg».proof.Proof.LibMatmulZero
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Mat

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

/-- Row n of the left matrix at column k, and row k of the right matrix at column j, for the entry i = (n, j). -/
abbrev lix (i : S100000x128.Idx) (k : Fin 256) : S100000x256.Idx := fun a => match a with
  | ⟨0, _⟩ => ⟨(i 0).val, (i 0).isLt⟩
  | ⟨1, _⟩ => ⟨k.val, k.isLt⟩
abbrev rix (i : S100000x128.Idx) (k : Fin 256) : S256x128.Idx := fun a => match a with
  | ⟨0, _⟩ => ⟨k.val, k.isLt⟩
  | ⟨1, _⟩ => ⟨(i 1).val, (i 1).isLt⟩

/-- The whole product. -/
def prod (x : FVec Ideal S100000x256 .f32) (wt : FVec Ideal S256x128 .f32) : FVec Ideal S100000x128 .f32 :=
  fun i => ∑ k : Fin 256, x (lix i k) * wt (rix i k)

/-- One grid point's payload at (p, q): the plain sum over the contracted axis. -/
theorem pay_apply (x0 : FVec Ideal S10000x256 .f32) (x1 : FVec Ideal S256x128 .f32) (p : Fin 10000) (q : Fin 128) :
    k0_pay1 (F := Ideal) x0 x1 (ix2 p q) = ∑ k : Fin 256, x0 (ix2 p k) * x1 (ix2 k q) := by
  have hx1 : shapeCast S256x128 x1 shapeCasts_S256x128_S256x128 = x1 := shapeCast_self _ _
  show matmul dot_S10000x256_S256x128_S10000x128_1_0_0_1_n_n none (truncf .bf16 x0 bitsLt_bf16_f32)
      (truncf .bf16 (shapeCast S256x128 x1 shapeCasts_S256x128_S256x128) bitsLt_bf16_f32)
      (constant S10000x128 .f32 0x00000000#32) (ix2 p q) = _
  rw [hx1]
  exact LibMatmulZero.matmul_zero_ix2 dot_S10000x256_S256x128_S10000x128_1_0_0_1_n_n rfl rfl rfl rfl
    (fun i c => by
      unfold DotDims.lhsIdx
      rw [dif_neg (show ¬(0 : Fin _) ∈ dot_S10000x256_S256x128_S10000x128_1_0_0_1_n_n.lhsBatch by decide),
        dif_pos (show (0 : Fin _) ∈ dot_S10000x256_S256x128_S10000x128_1_0_0_1_n_n.lhsNonContracting by decide)]
      rfl)
    (fun i c => by
      unfold DotDims.rhsIdx
      rw [dif_neg (show ¬(1 : Fin _) ∈ dot_S10000x256_S256x128_S10000x128_1_0_0_1_n_n.rhsBatch by decide),
        dif_pos (show (1 : Fin _) ∈ dot_S10000x256_S256x128_S10000x128_1_0_0_1_n_n.rhsNonContracting by decide)]
      rfl)
    none _ _ p q

/-- A block's payload is the block of the whole product: if the left block is rows T·10000 … of x and the right
    block is wt, the payload at j is the product at the entry i whose row is T·10000 + (row of j) and whose column is j's. -/
theorem pay_eq_prod (x : FVec Ideal S100000x256 .f32) (wt : FVec Ideal S256x128 .f32)
    (x0 : FVec Ideal S10000x256 .f32) (x1 : FVec Ideal S256x128 .f32) (T : Nat) (j : S10000x128.Idx) (i : S100000x128.Idx)
    (hx0 : ∀ (p : Fin 10000) (k : Fin 256) (i' : S100000x256.Idx), (i' 0).val = T * 10000 + p.val → (i' 1).val = k.val →
      x0 (ix2 p k) = x i')
    (hx1 : ∀ (k : Fin 256) (q : Fin 128) (i' : S256x128.Idx), (i' 0).val = k.val → (i' 1).val = q.val → x1 (ix2 k q) = wt i')
    (hi0 : (i 0).val = T * 10000 + (j 0).val) (hi1 : (i 1).val = (j 1).val) :
    k0_pay1 (F := Ideal) x0 x1 j = prod x wt i := by
  obtain ⟨p, q, rfl⟩ : ∃ (p : Fin 10000) (q : Fin 128), j = ix2 p q := ⟨j 0, j 1, eq_ix2 j⟩
  rw [pay_apply]
  unfold prod
  refine Finset.sum_congr rfl fun k _ => ?_
  rw [hx0 p k (lix i k) hi0 rfl, hx1 k q (rix i k) rfl hi1]

variable (m : (ℓ : Loc nD τ sig) → Buf (Elt Ideal) ℓ)

theorem hz : (![0, 0] : Fin 2 → Nat) = fun _ => 0 := funext fun a => by fin_cases a <;> rfl

/-- Where the blocks sit: the feature block and the result block at point t are block t along the rows, the weight
    block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed_eq (c : Dev nD) (t : Fin cfg0.N) :
    (dats m 0 c).flushed 2 t = ((cfg0.win 2).blk t).view.read (Elt Ideal) (prod (V m c main_arg0) (V m c main_v0)) := by
  show (cfg0.win 2).cut (grid0.coords t) ((dats m 0 c).after 2 t) = _
  rw [after_2]
  unfold outBlk
  rw [View.canon_unit_zero hz]
  simp only [View.ld_unit_zero (S := S10000x256) hz, View.ld_unit_zero (S := S256x128) hz]
  obtain ⟨e00, e01, e10, e11, e20, e21⟩ := idx_facts t
  funext j
  show k0_pay1 (F := Ideal) (iblk m c 0 t) (iblk m c 1 t) j
    = prod (V m c main_arg0) (V m c main_v0) (((cfg0.win 2).blk t).view.emb j)
  refine pay_eq_prod (V m c main_arg0) (V m c main_v0) _ _ t.val j _ ?_ ?_ ?_ ?_
  · intro p k i' h0 h1
    show V m c main_arg0 (((cfg0.win 0).blk t).view.emb (ix2 p k)) = V m c main_arg0 i'
    refine congrArg _ (funext fun a => Fin.ext ?_)
    match a with
    | ⟨0, _⟩ => show win0_0.index t (0 : Fin 2) * 10000 + 1 * p.val = (i' 0).val; omega
    | ⟨1, _⟩ => show win0_0.index t (1 : Fin 2) * 256 + 1 * k.val = (i' 1).val; omega
  · intro k q i' h0 h1
    show V m c main_v0 (((cfg0.win 1).blk t).view.emb (ix2 k q)) = V m c main_v0 i'
    refine congrArg _ (funext fun a => Fin.ext ?_)
    match a with
    | ⟨0, _⟩ => show win0_1.index t (0 : Fin 2) * 256 + 1 * k.val = (i' 0).val; omega
    | ⟨1, _⟩ => show win0_1.index t (1 : Fin 2) * 128 + 1 * q.val = (i' 1).val; omega
  · show win0_2.index t (0 : Fin 2) * 10000 + 1 * (j 0).val = t.val * 10000 + (j 0).val; omega
  · show win0_2.index t (1 : Fin 2) * 128 + 1 * (j 1).val = (j 1).val; omega

/-- An entry is in point t's block iff its coordinates are in the block's ranges. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v1).slice (win0_2.rect t)).set ↔ _
  rw [View.set_slice_whole, Rect.mem_set_unit]
  exact Iff.rfl

/-- Every entry is in the block of the point its row falls in. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨e00, e01, e10, e11, e20, e21⟩ := idx_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The array of the result window after the grid is the whole product of the arrays the grid found. -/
theorem final (c : Dev nD) : (dats m 0 c).arrAt 2 cfg0.N = prod (V m c main_arg0) (V m c main_v0) :=
  (dats m 0 c).arrAt_eq_of_cover 2 (prod (V m c main_arg0) (V m c main_v0)) (fun t _ => flushed_eq m c t) cover

/-- The grid finds the feature matrix as launched and the transposed weights as the line before it wrote them. -/
theorem V_x (c : Dev nD) : V m c main_arg0 = m ((c : Thread nD τ).loc main_arg0) := V_keep m c main_arg0 (by decide)
theorem V_wt (c : Dev nD) : (V m c main_v0 : S256x128.Idx → Elt Ideal .f32)
    = transpose S256x128 [1, 0] (m ((c : Thread nD τ).loc main_arg2)) transposes_S128x256_S256x128_1_0 := by
  show StableHlo.after (hostOps0 : List (HloOp τ sig (Elt Ideal))) (fun b => m (c, b)) (Proc.devRef .tc main_v0) = _
  after_results

end Cert.KernelIdeal.Mat

end
-- ==== Proof.KerRun.lean ====
/-
  The first program's run, read: every weakly fair execution terminates with the result buffer at the tail's function
  (KerTail) of the edge list, the grid's product x · Wᵀ (KerMatmul), the bias and the slope — all as launched — and with
  the five arguments unchanged.

  The lines after the grid run from the buffers as the grid leaves them: the three staged arrays at what the
  write-backs left (the product among them), every other buffer as the grid found it.  The tail reads the edge list, the
  bias and the slope, which nothing wrote, and the product.
-/
import proofs.«102632_j64244120814048_2_alg».proof.Proof.FrameKI
import proofs.«102632_j64244120814048_2_alg».proof.Proof.KerTail
import proofs.«102632_j64244120814048_2_alg».proof.Proof.KerMatmul

set_option maxRecDepth 16384

noncomputable section

namespace Cert.KernelIdeal.Run

open Idealize.ShloMosaic Idealize.ShloMosaic.TcCoe Idealize.SL.Sem
open Idealize.ShloMosaic.Pipeline (Dat)
open Cert.KernelIdeal Cert.KernelIdeal.Gen Cert.KernelIdeal.Fr

variable (m : (ℓ : Loc nD τ sig) → Buf (Elt Ideal) ℓ) (ρ : Dev nD → PrngReg)

/-- The result as a function of the launch contents. -/
def result (c : Dev nD) : Buf (Elt Ideal) ((c.tc : Thread nD τ).loc main_v56) :=
  Tail.outOf (m ((c.tc : Thread nD τ).loc main_arg1))
    (Mat.prod (m ((c.tc : Thread nD τ).loc main_arg0))
      (transpose S256x128 [1, 0] (m ((c.tc : Thread nD τ).loc main_arg2)) transposes_S128x256_S256x128_1_0))
    (m ((c.tc : Thread nD τ).loc main_arg3)) (m ((c.tc : Thread nD τ).loc main_arg4))

/-- What the result buffer holds after the lines that follow the grid. -/
theorem tail_read (c : Dev nD) :
    Pipeline.afterTail₀ cfgs (dats m) 0 (V0 m) [hostOps1, hostOps1_1] c main_v56 = result m c := by
  unfold Pipeline.afterTail₀
  rw [Tail.tail_value]
  unfold result
  rw [Pipeline.withArrays_of_ne _ c (V0 m c) _ main_arg1 (by decide), Pipeline.withArrays_of_ne _ c (V0 m c) _ main_arg3 (by decide),
    Pipeline.withArrays_of_ne _ c (V0 m c) _ main_arg4 (by decide)]
  have h1 : V0 m c (Proc.devRef .tc main_arg1) = m ((c.tc : Thread nD τ).loc main_arg1) := V_keep m c main_arg1 (by decide)
  have h3 : V0 m c (Proc.devRef .tc main_arg3) = m ((c.tc : Thread nD τ).loc main_arg3) := V_keep m c main_arg3 (by decide)
  have h4 : V0 m c (Proc.devRef .tc main_arg4) = m ((c.tc : Thread nD τ).loc main_arg4) := V_keep m c main_arg4 (by decide)
  have hp : Pipeline.withArrays (cfgs 0).spec c (V0 m c) (fun w => (dats m 0 c).arrAt w (cfgs 0).N) (Proc.devRef .tc main_v1)
      = Mat.prod (m ((c.tc : Thread nD τ).loc main_arg0))
          (transpose S256x128 [1, 0] (m ((c.tc : Thread nD τ).loc main_arg2)) transposes_S128x256_S256x128_1_0) := by
    refine (Pipeline.withArrays_arr spec0 launch0.win.arr_inj c (V0 m c) _ 2).trans ?_
    rw [Mat.final, Mat.V_x, Mat.V_wt]
  rw [h1, h3, h4, hp]

/-- The run. -/
theorem run : θ_run defs (onTc (τ := τ) (main (F := Ideal))) ⟨m, fun _ => 0, ρ⟩ (fun r => ∀ c : Dev nD,
      r.2.mem ((c.tc : Thread nD τ).loc main_v56) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v56 (Pipeline.mem_restRefs_of main_v56 (by decide) (by decide))).trans (tail_read m c),
     ((h c).1 0).trans ((((dats m 0 c).arrAt_in 0 rfl _).trans ((A_eq m c 0).trans (V_keep m c main_arg0 (by decide))))),
     ((h c).2 main_arg1 (Pipeline.mem_restRefs_of main_arg1 (by decide) (by decide))).trans (W_keep m (dats m) c main_arg1 (by decide) (by decide) (by decide)),
     ((h c).2 main_arg2 (Pipeline.mem_restRefs_of main_arg2 (by decide) (by decide))).trans (W_keep m (dats m) c main_arg2 (by decide) (by decide) (by decide)),
     ((h c).2 main_arg3 (Pipeline.mem_restRefs_of main_arg3 (by decide) (by decide))).trans (W_keep m (dats m) c main_arg3 (by decide) (by decide) (by decide)),
     ((h c).2 main_arg4 (Pipeline.mem_restRefs_of main_arg4 (by decide) (by decide))).trans (W_keep m (dats m) c main_arg4 (by decide) (by decide) (by decide))⟩)
    (run_main m ρ)

end Cert.KernelIdeal.Run

end
-- ==== Proof.LibSegSum.lean ====
/-
  Scatter-adds along a column of row indices, at the ideal values, read at one entry — for any extents.

  A table x : [N, C] receives updates u : [E, C] at a column [E, 1] of row indices (what a segment sum of E rows into N
  segments lowers to): update element (e, c) is added at (r e, c), where r e is edge e's index read as a signed integer,
  and is dropped when r e is outside [0, N).  So the result at (n, q) is

      x(n, q) + Σ_{e < E} [r e = n] · u(e, q)                                   (scatterRows_apply),

  the bracket meaning: the summand is u(e, q) where the equation holds and 0 elsewhere.  The vector form — x : [N],
  u : [E], the same column of indices — has at n the value x(n) + Σ_{e < E} [r e = n] · u(e)   (scatterVec_apply).

  Both follow from the exact landing condition of one update element (rows_lands_iff, vec_lands_iff): it lands on an
  entry iff its row index, read signed, IS that entry's row and (for rows) its column is that entry's column.  The sums
  are finite sums on the extended reals, which form a commutative monoid under addition, so nothing about finiteness of
  the summands is needed.
  Imports only the library.
-/
import Idealize.ShloMosaic.PureOps.Ideal.Laws
import Idealize.ShloMosaic.Lib.ValueIdx
import Idealize.ShloMosaic.Lib.Pipeline.Value

noncomputable section

open scoped BigOperators

namespace Cert.LibSegSum

open Idealize.ShloMosaic Idealize.ShloMosaic.ValueIdx

/-! ## Rows: a table [N, C], indices [E, 1], updates [E, C] -/

/-- The dimension numbers of a row scatter: the updates' axis 1 is the window axis and goes to the table's axis 1, the
    table's axis 0 is indexed by the one component of the index vector. -/
abbrev rowsScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)
  (idx : IVec ⟨2, ![E, 1]⟩ w) (u : (⟨2, ![E, C]⟩ : Shape).Idx)

/-- On the row axis the window starts at the edge's index, read signed. -/
theorem rows_start_row :
    (rowsScatter N C E wf).start u idx (0 : Fin 2) = (idx (ix2 (u 0) (0 : Fin 1))).toInt := by
  unfold ScatterDims.start
  rw [dif_pos (show (0 : Fin 2) ∈ (rowsScatter N C E wf).scatterDimsToOperandDims from List.mem_singleton.mpr rfl)]
  refine congrArg (fun k => (idx k).toInt) (funext fun b => Fin.ext ?_)
  match b with
  | ⟨0, _⟩ => rfl
  | ⟨1, _⟩ => rfl

/-- On the column axis the window starts at 0. -/
theorem rows_start_col : (rowsScatter N C E wf).start u idx (1 : Fin 2) = 0 := by
  unfold ScatterDims.start
  exact dif_neg (show ¬ (1 : Fin 2) ∈ ([0] : List (Fin 2)) by decide)

/-- The row axis is inserted: no window coordinate there. -/
theorem rows_window_row : (rowsScatter N C E wf).window u (0 : Fin 2) = 0 := by
  unfold ScatterDims.window
  exact dif_neg (show ¬ (0 : Fin 2) ∈ (rowsScatter N C E wf).sKept by
    simp [ScatterDims.sKept, Shape.kept, List.mem_filter, List.mem_finRange])

/-- On the column axis the window coordinate is the update's own column. -/
theorem rows_window_col : (rowsScatter N C E wf).window u (1 : Fin 2) = (u 1).val := by
  unfold ScatterDims.window
  rw [dif_pos (show (1 : Fin 2) ∈ (rowsScatter N C E wf).sKept by
    simp [ScatterDims.sKept, Shape.kept, List.mem_filter, List.mem_finRange])]
  rfl

/-- An update element lands on the entry i exactly when its edge's index, read signed, is i's row and its column is
    i's column. -/
theorem rows_lands_iff (i : (⟨2, ![N, C]⟩ : Shape).Idx) :
    (rowsScatter N C E wf).resultIdx? u idx = some i
      ↔ (idx (ix2 (u 0) (0 : Fin 1))).toInt = ((i 0).val : Int) ∧ (u 1).val = (i 1).val := by
  have hi0 : (i 0).val < N := idx2_lt0 i
  have hi1 : (i 1).val < C := idx2_lt1 i
  have hu1 : (u 1).val < C := idx2_lt1 u
  unfold ScatterDims.resultIdx?
  split
  · rename_i hall
    have h0 := (hall 0).1
    rw [rows_start_row, rows_window_row] at h0
    constructor
    · intro h
      have e0 : ((rowsScatter N C E wf).start u idx 0 + (rowsScatter N C E wf).window u 0).toNat = (i 0).val :=
        congrArg Fin.val (congrFun (Option.some.inj h) 0)
      have e1 : ((rowsScatter N C E wf).start u idx 1 + (rowsScatter N C E wf).window u 1).toNat = (i 1).val :=
        congrArg Fin.val (congrFun (Option.some.inj h) 1)
      rw [rows_start_row, rows_window_row] at e0
      rw [rows_start_col, rows_window_col] at e1
      constructor <;> omega
    · rintro ⟨hr, hc⟩
      refine congrArg some (funext fun a => Fin.ext ?_)
      match a with
      | ⟨0, _⟩ =>
        show ((rowsScatter N C E wf).start u idx 0 + (rowsScatter N C E wf).window u 0).toNat = (i 0).val
        rw [rows_start_row, rows_window_row]; omega
      | ⟨1, _⟩ =>
        show ((rowsScatter N C E wf).start u idx 1 + (rowsScatter N C E wf).window u 1).toNat = (i 1).val
        rw [rows_start_col, rows_window_col]; omega
  · rename_i hno
    constructor
    · intro h; exact absurd h (by simp)
    · rintro ⟨hr, hc⟩
      refine absurd (fun a => ?_) hno
      match a with
      | ⟨0, _⟩ =>
        show 0 ≤ (rowsScatter N C E wf).start u idx 0 + (rowsScatter N C E wf).window u 0
          ∧ (rowsScatter N C E wf).start u idx 0 + (rowsScatter N C E wf).window u 0 < (N : Int)
        rw [rows_start_row, rows_window_row]; omega
      | ⟨1, _⟩ =>
        show 0 ≤ (rowsScatter N C E wf).start u idx 1 + (rowsScatter N C E wf).window u 1
          ∧ (rowsScatter N C E wf).start u idx 1 + (rowsScatter N C E wf).window u 1 < (C : Int)
        rw [rows_start_col, rows_window_col]; omega

end Rows

/-- A row scatter-add read at (n, q): the table's entry plus the updates (e, q) of the edges e whose index is n. -/
theorem scatterRows_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (q : Fin C) :
    Host.scatterAdd (F := Ideal) (rowsScatter N C E wf) x idx upd (ix2 n q)
      = x (ix2 n q) + ∑ e : Fin E, if (idx (ix2 e (0 : Fin 1))).toInt = (n.val : Int) then upd (ix2 e q) else 0 := by
  simp only [Host.scatterAdd, Ideal.hostScatterAdd_def, Ideal.hostScatterAdd]
  refine congrArg (x (ix2 n q) + ·) ?_
  rw [Finset.sum_filter, sum_idx2]
  refine Finset.sum_congr rfl fun e _ => ?_
  by_cases hr : (idx (ix2 e (0 : Fin 1))).toInt = (n.val : Int)
  · rw [if_pos hr]
    rw [Finset.sum_eq_single q]
    · exact if_pos ((rows_lands_iff wf idx (ix2 e q) (ix2 n q)).mpr ⟨hr, rfl⟩)
    · intro c _ hc
      exact if_neg fun h => hc (Fin.ext ((rows_lands_iff wf idx (ix2 e c) (ix2 n q)).mp h).2)
    · intro h; exact absurd (Finset.mem_univ q) h
  · rw [if_neg hr]
    exact Finset.sum_eq_zero fun c _ => if_neg fun h => hr ((rows_lands_iff wf idx (ix2 e c) (ix2 n q)).mp h).1

/-! ## A vector [N], indices [E, 1], updates [E] -/

/-- The dimension numbers of a scatter of scalars: no window axis, the vector's one axis indexed by the one component of
    the index vector. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w) (u : (⟨1, ![E]⟩ : Shape).Idx)

/-- The window starts at the edge's index, read signed. -/
theorem vec_start : (vecScatter N E wf).start u idx (0 : Fin 1) = (idx (ix2 (u 0) (0 : Fin 1))).toInt := by
  unfold ScatterDims.start
  rw [dif_pos (show (0 : Fin 1) ∈ (vecScatter N E wf).scatterDimsToOperandDims from List.mem_singleton.mpr rfl)]
  refine congrArg (fun k => (idx k).toInt) (funext fun b => Fin.ext ?_)
  match b with
  | ⟨0, _⟩ => rfl
  | ⟨1, _⟩ => rfl

/-- The one axis is inserted: no window coordinate. -/
theorem vec_window : (vecScatter N E wf).window u (0 : Fin 1) = 0 := by
  unfold ScatterDims.window
  exact dif_neg (show ¬ (0 : Fin 1) ∈ (vecScatter N E wf).sKept by
    simp [ScatterDims.sKept, Shape.kept, List.mem_filter, List.mem_finRange])

/-- An update lands on the entry i exactly when its edge's index, read signed, is i. -/
theorem vec_lands_iff (i : (⟨1, ![N]⟩ : Shape).Idx) :
    (vecScatter N E wf).resultIdx? u idx = some i ↔ (idx (ix2 (u 0) (0 : Fin 1))).toInt = ((i 0).val : Int) := by
  have hi0 : (i 0).val < N := (i 0).isLt
  unfold ScatterDims.resultIdx?
  split
  · rename_i hall
    have h0 := (hall 0).1
    rw [vec_start, vec_window] at h0
    constructor
    · intro h
      have e0 : ((vecScatter N E wf).start u idx 0 + (vecScatter N E wf).window u 0).toNat = (i 0).val :=
        congrArg Fin.val (congrFun (Option.some.inj h) 0)
      rw [vec_start, vec_window] at e0
      omega
    · intro hr
      refine congrArg some (funext fun a => Fin.ext ?_)
      obtain rfl : a = 0 := Subsingleton.elim _ _
      show ((vecScatter N E wf).start u idx 0 + (vecScatter N E wf).window u 0).toNat = (i 0).val
      rw [vec_start, vec_window]; omega
  · rename_i hno
    constructor
    · intro h; exact absurd h (by simp)
    · intro hr
      refine absurd (fun a => ?_) hno
      obtain rfl : a = 0 := Subsingleton.elim _ _
      show 0 ≤ (vecScatter N E wf).start u idx 0 + (vecScatter N E wf).window u 0
        ∧ (vecScatter N E wf).start u idx 0 + (vecScatter N E wf).window u 0 < (N : Int)
      rw [vec_start, vec_window]; omega

end Vec

/-- A sum over the index set of a one-dimensional array is the sum over its coordinate. -/
theorem sum_idx1 {M : Type*} [AddCommMonoid M] {n : Nat} (f : (⟨1, ![n]⟩ : Shape).Idx → M) :
    ∑ i, f i = ∑ a : Fin n, f (ix1 a) := by
  refine (Equiv.sum_comp (⟨fun a => ix1 a, fun i => i 0, fun _ => rfl, fun i => (eq_ix1 i).symm⟩ :
    Fin n ≃ (⟨1, ![n]⟩ : Shape).Idx) f).symm.trans ?_
  rfl

/-- A scatter-add of scalars read at n: the vector's entry plus the updates of the edges whose index is n. -/
theorem scatterVec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecScatter N E wf) x idx upd (ix1 n)
      = x (ix1 n) + ∑ e : Fin E, if (idx (ix2 e (0 : Fin 1))).toInt = (n.val : Int) then upd (ix1 e) else 0 := by
  simp only [Host.scatterAdd, Ideal.hostScatterAdd_def, Ideal.hostScatterAdd]
  refine congrArg (x (ix1 n) + ·) ?_
  rw [Finset.sum_filter, sum_idx1]
  refine Finset.sum_congr rfl fun e _ => ?_
  by_cases hr : (idx (ix2 e (0 : Fin 1))).toInt = (n.val : Int)
  · rw [if_pos hr]; exact if_pos ((vec_lands_iff wf idx (ix1 e) (ix1 n)).mpr hr)
  · rw [if_neg hr]; exact if_neg fun h => hr ((vec_lands_iff wf idx (ix1 e) (ix1 n)).mp h)

end Cert.LibSegSum

end
-- ==== Proof.LibGraphOps.lean ====
/-
  Rows of a node table gathered along an edge list, and rows scattered back with addition, at the ideal values.

  A table x : [N, J] gathered at a column of E start indices has at (e, j) the entry x(r e, j), where r e is the start
  index of edge e read as a signed integer and clamped into [0, N - 1]; a vector x : [N] gathered the same way has at e
  the entry x(r e).  A scatter-add of updates u : [E, J] into a table [N, J] at a column of E indices adds u(e, j) into
  row d of column j exactly for the edges e whose index, read signed and NOT clamped, is d; an index outside [0, N)
  adds nothing.  So an edge that lands on row d has a non-negative index whose clamp is d itself.

  The law proved here (scatterAdd_rescale): if every update of one scatter is the matching update of another times a
  factor that depends only on the row the edge lands on, and that factor is a non-negative real number, then the first
  scatter's sum is the second's times the factor.  On the extended reals (a + b) * c = a * c + b * c holds for any a, b
  once 0 ≤ c < ⊤, which is what lets the factor leave the sum whatever the summands are.
  Also here: the host's reduction with a maximum body along the columns of a matrix, at a row, as a fold of max over the
  columns (hostRowMax_apply), at any extents.
  Imports only the library.
-/
import Idealize.ShloMosaic.PureOps.Ideal.Laws
import Idealize.ShloMosaic.Lib.ValueIdx
import Idealize.ShloMosaic.Lib.Pipeline.Value

noncomputable section

open scoped BigOperators

namespace Cert.LibGraph

open Idealize.ShloMosaic Idealize.ShloMosaic.ValueIdx

/-! ## A start index read signed and clamped into the table -/

/-- A start index word read as a signed integer and clamped into [0, N - 1]. -/
def clampIdx (N : Nat) (hN : 0 < N) {w : Nat} (v : BitVec w) : Fin N :=
  ⟨min v.toInt.toNat (N - 1), by have := Nat.min_le_right v.toInt.toNat (N - 1); omega⟩

/-- A non-negative index below N is its own clamp. -/
theorem clampIdx_of_landed {N : Nat} (hN : 0 < N) {w : Nat} (v : BitVec w) (d : Fin N) (h : v.toInt = (d.val : Int)) :
    clampIdx N hN v = d := by
  apply Fin.ext
  show min v.toInt.toNat (N - 1) = d.val
  have := d.isLt
  have h' : v.toInt.toNat = d.val := by omega
  rw [h']; omega

/-! ## Gathers of rows -/

/-- The dimension numbers of x[idx] for a table [N, J] and a column [E, 1] of start indices. -/
abbrev rowsGather (N J E : Nat) (wf : GatherDims.WF ⟨2, ![N, J]⟩ ⟨2, ![E, 1]⟩ ⟨2, ![E, J]⟩ [1] [0] [] [0] [] 1 ![1, J]) :
    GatherDims ⟨2, ![N, J]⟩ ⟨2, ![E, 1]⟩ ⟨2, ![E, J]⟩ where
  offsetDims := [1]
  collapsedSliceDims := [0]
  operandBatchingDims := []
  startIndicesBatchingDims := []
  startIndexMap := [0]
  indexVectorDim := 1
  sliceSizes := ![1, J]
  wf := wf

/-- The gathered table at (e, j) is the table at (clamped start index of e, j). -/
theorem gatherRows_apply {α : Type} {N J E w : Nat} (hN : 0 < N)
    (wf : GatherDims.WF ⟨2, ![N, J]⟩ ⟨2, ![E, 1]⟩ ⟨2, ![E, J]⟩ [1] [0] [] [0] [] 1 ![1, J])
    (x : (⟨2, ![N, J]⟩ : Shape).Idx → α) (idx : IVec ⟨2, ![E, 1]⟩ w) (e : Fin E) (j : Fin J) :
    Host.gather (rowsGather N J E wf) x idx (ix2 e j) = x (ix2 (clampIdx N hN (idx (ix2 e (0 : Fin 1)))) j) := by
  -- the row coordinate: the clamped start index, no batch and no offset part
  have h0 : (rowsGather N J E wf).start (ix2 e j) idx (0 : Fin 2) + (rowsGather N J E wf).batchCoord (ix2 e j) (0 : Fin 2)
      + (rowsGather N J E wf).offCoord (ix2 e j) (0 : Fin 2) = (clampIdx N hN (idx (ix2 e (0 : Fin 1)))).val := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowsGather N J E wf).startIndexMap from List.mem_singleton.mpr rfl)]
    have hsi : (rowsGather N J E wf).siIdx (ix2 e j) ⟨List.idxOf (0 : Fin 2) (rowsGather N J E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the column coordinate: no start, no batch part, the result's own column
  have h1 : (rowsGather N J E wf).start (ix2 e j) idx (1 : Fin 2) + (rowsGather N J E wf).batchCoord (ix2 e j) (1 : Fin 2)
      + (rowsGather N J E wf).offCoord (ix2 e j) (1 : Fin 2) = j.val := by
    have hs : (rowsGather N J E wf).start (ix2 e j) idx (1 : Fin 2) = 0 := by
      unfold GatherDims.start
      exact dif_neg (show ¬ (1 : Fin 2) ∈ ([0] : List (Fin 2)) by decide)
    have hk : (1 : Fin 2) ∈ (rowsGather N J E wf).sKept :=
      (GatherDims.mem_sKept _ _).mpr ⟨(show ¬ (1 : Fin 2) ∈ ([0] : List (Fin 2)) by decide), List.not_mem_nil⟩
    rw [hs, GatherDims.batchCoord_eq_zero _ _ _ List.not_mem_nil, Nat.add_zero, Nat.zero_add]
    unfold GatherDims.offCoord
    rw [dif_pos hk]
    rfl
  unfold Host.gather
  refine congrArg x (funext fun a => Fin.ext ?_)
  match a with
  | ⟨0, _⟩ => exact h0
  | ⟨1, _⟩ => exact h1

/-- The dimension numbers of x[idx] for a vector [N] and a column [E, 1] of start indices. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gathered vector at e is the vector at the clamped start index of e. -/
theorem gatherVec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampIdx N hN (idx (ix2 e (0 : Fin 1))))) := by
  unfold Host.gather
  refine congrArg x (funext fun a => Fin.ext ?_)
  obtain rfl : a = 0 := Subsingleton.elim _ _
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Scatter-adds of rows -/

/-- The dimension numbers of .at[idx].add(u) for a table [N, J], a column [E, 1] of indices and updates [E, J]. -/
abbrev rowsScatter (N J E : Nat) (wf : ScatterDims.WF ⟨2, ![N, J]⟩ ⟨2, ![E, 1]⟩ ⟨2, ![E, J]⟩ [1] [0] [0] 1) :
    ScatterDims ⟨2, ![N, J]⟩ ⟨2, ![E, 1]⟩ ⟨2, ![E, J]⟩ where
  updateWindowDims := [1]
  insertedWindowDims := [0]
  scatterDimsToOperandDims := [0]
  indexVectorDim := 1
  wf := wf

/-- An update that lands on row d comes from an edge whose index, read signed, is d: it is not negative and its
    value is d. -/
theorem scatterRows_landed {N J E w : Nat} (wf : ScatterDims.WF ⟨2, ![N, J]⟩ ⟨2, ![E, 1]⟩ ⟨2, ![E, J]⟩ [1] [0] [0] 1)
    (idx : IVec ⟨2, ![E, 1]⟩ w) (u : (⟨2, ![E, J]⟩ : Shape).Idx) (i : (⟨2, ![N, J]⟩ : Shape).Idx)
    (h : (rowsScatter N J E wf).resultIdx? u idx = some i) :
    (idx (ix2 (u 0) (0 : Fin 1))).toInt = ((i 0).val : Int) := by
  unfold ScatterDims.resultIdx? at h
  split at h
  · rename_i hall
    have hi := congrFun (Option.some.inj h) 0
    have hv : ((rowsScatter N J E wf).start u idx 0 + (rowsScatter N J E wf).window u 0).toNat = (i 0).val :=
      congrArg Fin.val hi
    have hw : (rowsScatter N J E wf).window u (0 : Fin 2) = 0 := by
      unfold ScatterDims.window
      exact dif_neg (show ¬ (0 : Fin 2) ∈ (rowsScatter N J E wf).sKept by
        simp [ScatterDims.sKept, Shape.kept, List.mem_filter, List.mem_finRange])
    have hst : (rowsScatter N J E wf).start u idx (0 : Fin 2) = (idx (ix2 (u 0) (0 : Fin 1))).toInt := by
      unfold ScatterDims.start
      rw [dif_pos (show (0 : Fin 2) ∈ (rowsScatter N J E wf).scatterDimsToOperandDims from List.mem_singleton.mpr rfl)]
      have hsi : (rowsScatter N J E wf).siIdx u ⟨List.idxOf (0 : Fin 2) (rowsScatter N J E wf).scatterDimsToOperandDims,
          List.idxOf_lt_length_iff.2 (List.mem_singleton.mpr rfl)⟩ = ix2 (u 0) (0 : Fin 1) := by
        funext b; refine Fin.ext ?_
        match b with
        | ⟨0, _⟩ => rfl
        | ⟨1, _⟩ => rfl
      rw [hsi]
      rfl
    have hnn : 0 ≤ (rowsScatter N J E wf).start u idx 0 + (((rowsScatter N J E wf).window u 0 : Nat) : Int) := (hall 0).1
    rw [hw, hst] at hv hnn
    simp only [Nat.cast_zero, add_zero] at hv hnn
    omega
  · exact absurd h (by simp)

/-! ## A factor that leaves a sum -/

/-- A non-negative real factor leaves a finite sum of extended reals. -/
theorem sum_mul_of_nonneg_ne_top {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- THE LAW.  Two scatter-adds into zero tables at the same indices.  If at every update that lands on a row the
    second scatter's update is the first's times a factor c(row), and c(row) is a non-negative real, then at every
    entry the first scatter's sum times c(row) is the second's sum. -/
theorem scatterAdd_rescale {N J E w : Nat} (wf : ScatterDims.WF ⟨2, ![N, J]⟩ ⟨2, ![E, 1]⟩ ⟨2, ![E, J]⟩ [1] [0] [0] 1)
    (z : FVec Ideal ⟨2, ![N, J]⟩ .f32) (hz : ∀ i, z i = 0) (idx : IVec ⟨2, ![E, 1]⟩ w)
    (u₁ u₂ : FVec Ideal ⟨2, ![E, J]⟩ .f32) (c : Fin N → EReal) (h0 : ∀ n, 0 ≤ c n) (ht : ∀ n, c n ≠ ⊤)
    (hu : ∀ (u : (⟨2, ![E, J]⟩ : Shape).Idx) (i : (⟨2, ![N, J]⟩ : Shape).Idx),
      (rowsScatter N J E wf).resultIdx? u idx = some i → u₂ u = u₁ u * c (i 0))
    (i : (⟨2, ![N, J]⟩ : Shape).Idx) :
    Host.scatterAdd (F := Ideal) (rowsScatter N J E wf) z idx u₁ i * c (i 0)
      = Host.scatterAdd (F := Ideal) (rowsScatter N J E wf) z idx u₂ i := by
  simp only [Host.scatterAdd, Ideal.hostScatterAdd_def, Ideal.hostScatterAdd]
  rw [hz i, zero_add, zero_add]
  refine (sum_mul_of_nonneg_ne_top _ _ (c (i 0)) (h0 _) (ht _)).trans ?_
  refine Finset.sum_congr rfl fun u hu' => ?_
  exact (hu u i (Finset.mem_filter.mp hu').2).symm

/-! ## The inverse square root of a degree, guarded -/

/-- where(x > 0, rsqrt x, 0) on the extended reals is a non-negative real number, whatever x is: the inverse root of a
    positive real, 0 at +∞ (rsqrt's value there), and 0 where the guard fails. -/
theorem guardedRsqrt_nonneg_ne_top (x : EReal) :
    0 ≤ Scalar.select (Ideal.cmp .ogt x 0) (Ideal.rsqrt x) (0 : EReal)
      ∧ Scalar.select (Ideal.cmp .ogt x 0) (Ideal.rsqrt x) (0 : EReal) ≠ ⊤ := by
  induction x using EReal.rec with
  | bot => simp [Scalar.select, Ideal.cmp]
  | top =>
    have hr : Ideal.rsqrt (⊤ : EReal) = 0 := rfl
    simp [Scalar.select, Ideal.cmp, hr]
  | coe r =>
    by_cases h : 0 < r
    · have h1 : ¬ r < 0 := not_lt.mpr h.le
      have h2 : r ≠ 0 := h.ne'
      have hc : Ideal.cmp .ogt (r : EReal) 0 = 1#1 := by simp [Ideal.cmp, h]
      have hr : Ideal.rsqrt (r : EReal) = (((Real.sqrt r)⁻¹ : ℝ) : EReal) := by
        show (if r < 0 then (⊥ : EReal) else if r = 0 then ⊤ else (((Real.sqrt r)⁻¹ : ℝ) : EReal)) = _
        rw [if_neg h1, if_neg h2]
      rw [hc, show Scalar.select 1#1 (Ideal.rsqrt (r : EReal)) (0 : EReal) = Ideal.rsqrt (r : EReal) from if_pos rfl, hr]
      exact ⟨by exact_mod_cast inv_nonneg.mpr (Real.sqrt_nonneg r), EReal.coe_ne_top _⟩
    · have hc : Ideal.cmp .ogt (r : EReal) 0 = 0#1 := by simp [Ideal.cmp, h]
      rw [hc, show Scalar.select 0#1 (Ideal.rsqrt (r : EReal)) (0 : EReal) = 0 from if_neg (by decide)]
      exact ⟨le_refl _, EReal.zero_ne_top⟩

/-! ## A negative index wrapped, where the index is not negative -/

/-- where(v < 0, a, v) is v for an index word v that is not negative as a signed integer, whatever a is (in the
    programs a is v + n, the index wrapped from the end). -/
theorem wrapIdx_of_nonneg {w : Nat} (v a z : BitVec w) (hz : z = 0#w) (h : 0 ≤ v.toInt) :
    Scalar.select (IntOp.cmpi .slt v z) a v = v := by
  subst hz
  have : IntOp.cmpi .slt v 0#w = 0#1 := by
    simp only [IntOp.cmpi, BitVec.slt, BitVec.toInt_zero]
    simp [not_lt.mpr h]
  rw [this]
  exact if_neg (by decide)

/-! ## A row's maximum on the host -/

/-- The host's reduction with a maximum body along the columns of an [R, C] matrix, at row p: the fold of max, from the
    initial value, over the columns of that row's entries. -/
theorem hostRowMax_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x _ h' h hu]
  exact congrArg (fun f => Finset.fold max (init (Shape.Idx.first hu)) f (Finset.univ : Finset (Fin C)))
    (funext fun k => congrArg x (funext fun d => Fin.ext (by
      match d with
      | ⟨0, _⟩ => rfl
      | ⟨1, _⟩ => rfl)))

end Cert.LibGraph

end
-- ==== Proof.LibBcast.lean ====
/-
  `broadcast_in_dim` of small shapes read at one entry, at ANY extents and any element type.

  * A column [N, 1] repeated along C columns (operand axes to result axes 0, 1) reads, at (n, c), the column at (n, 0)
    (`bcastCol_apply`); a row [1, C] repeated along N rows reads, at (n, c), the row at (0, c) (`bcastRow_apply`).
  * A vector [C] laid as a row [1, C] (operand axis to result axis 1) reads, at (u, c), the vector at c
    (`bcastVecRow_apply`); a vector [N] laid as a column [N, 1] (operand axis to result axis 0) reads, at (n, u), the
    vector at n (`bcastVecCol_apply`).
  * A scalar broadcast to any shape reads, at any index, the scalar (`bcastScalar_apply`).
  Imports only the library.
-/
import Idealize.ShloMosaic.Lib.ValueIdx
import Idealize.ShloMosaic.Lib.Pipeline.Value

noncomputable section

namespace Cert.LibBcast

open Idealize.ShloMosaic Idealize.ShloMosaic.ValueIdx

variable {α : Type}

/-- A column [N, 1] repeated along C columns reads, at (n, c), the column at (n, 0). -/
theorem bcastCol_apply {N C : Nat} (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) := by
  refine broadcastInDim_apply ![0, 1] h x (ix2 n c) (ix2 n (0 : Fin 1)) fun a => ?_
  match a with
  | ⟨0, _⟩ =>
    show n.val = if N = 1 then 0 else n.val
    split
    · have := n.isLt; omega
    · rfl
  | ⟨1, _⟩ => rfl

/-- A row [1, C] repeated along N rows reads, at (n, c), the row at (0, c). -/
theorem bcastRow_apply {N C : Nat} (x : (⟨2, ![1, C]⟩ : Shape).Idx → α)
    (h : (⟨2, ![1, C]⟩ : Shape).BroadcastsInDim ⟨2, ![N, C]⟩ ![0, 1]) (n : Fin N) (c : Fin C) :
    broadcastInDim ⟨2, ![N, C]⟩ ![0, 1] h x (ix2 n c) = x (ix2 (0 : Fin 1) c) := by
  refine broadcastInDim_apply ![0, 1] h x (ix2 n c) (ix2 (0 : Fin 1) c) fun a => ?_
  match a with
  | ⟨0, _⟩ => rfl
  | ⟨1, _⟩ =>
    show c.val = if C = 1 then 0 else c.val
    split
    · have := c.isLt; omega
    · rfl

/-- A vector [C] laid as a row [1, C] reads, at (u, c), the vector at c. -/
theorem bcastVecRow_apply {C : Nat} (x : (⟨1, ![C]⟩ : Shape).Idx → α)
    (h : (⟨1, ![C]⟩ : Shape).BroadcastsInDim ⟨2, ![1, C]⟩ ![1]) (u : Fin 1) (c : Fin C) :
    broadcastInDim ⟨2, ![1, C]⟩ ![1] h x (ix2 u c) = x (ix1 c) := by
  refine broadcastInDim_apply ![1] h x (ix2 u c) (ix1 c) fun a => ?_
  match a with
  | ⟨0, _⟩ =>
    show c.val = if C = 1 then 0 else c.val
    split
    · have := c.isLt; omega
    · rfl

/-- A vector [N] laid as a column [N, 1] reads, at (n, u), the vector at n. -/
theorem bcastVecCol_apply {N : Nat} (x : (⟨1, ![N]⟩ : Shape).Idx → α)
    (h : (⟨1, ![N]⟩ : Shape).BroadcastsInDim ⟨2, ![N, 1]⟩ ![0]) (n : Fin N) (u : Fin 1) :
    broadcastInDim ⟨2, ![N, 1]⟩ ![0] h x (ix2 n u) = x (ix1 n) := by
  refine broadcastInDim_apply ![0] h x (ix2 n u) (ix1 n) fun a => ?_
  match a with
  | ⟨0, _⟩ =>
    show n.val = if N = 1 then 0 else n.val
    split
    · have := n.isLt; omega
    · rfl

/-- A scalar broadcast to any shape reads, at any index, the scalar. -/
theorem bcastScalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun a => a.elim0

end Cert.LibBcast

end
-- ==== Proof.LibGcn.lean ====
/-
  One layer of normalised neighbour aggregation over an edge list, read at one entry — for any number of nodes N,
  channels C and edges M.

  An edge e has a source word s(e) and a target word d(e).  A word is turned into a node by wrapping a negative word
  from the end (w + nW where w < 0) and clamping the signed result into [0, N - 1]: write g(w) for that node.
  With a node table h : [N, C] and a node weight v : [N], every edge sends h(g(s e), ·) · (v(g(s e)) · v(g(d e))) to
  the node whose number its target word IS (read signed, not wrapped, not clamped; a word outside [0, N) sends
  nothing).  So the aggregate at (n, q) is

      0 + Σ_{e < M} [d(e) = n] · h(g(s e), q) · (v(g(s e)) · v(g(d e)))                          (aggG_apply)

  and the number of edges arriving at n, counted with a weight `one` each, is  0 + Σ_{e < M} [d(e) = n] · one
  (degG_apply).  Both are finite sums of extended reals; nothing needs to be finite.
-/
import Idealize.ShloMosaic.PureOps.Ideal.Laws
import Idealize.ShloMosaic.Lib.ValueIdx
import Idealize.ShloMosaic.Lib.Pipeline.Value
import proofs.«102632_j64244120814048_2_alg».proof.Proof.LibSegSum
import proofs.«102632_j64244120814048_2_alg».proof.Proof.LibGraphOps
import proofs.«102632_j64244120814048_2_alg».proof.Proof.LibBcast

noncomputable section

open scoped BigOperators

namespace Cert.Gcn

open Idealize.ShloMosaic Idealize.ShloMosaic.ValueIdx

/-- The shape of a scalar. -/
abbrev S0 : Shape := ⟨0, ![]⟩

section
variable {N C M : Nat} (hN : 0 < N) (nW : BitVec 32)
  (bM : S0.BroadcastsInDim ⟨1, ![M]⟩ ![]) (bN : S0.BroadcastsInDim ⟨1, ![N]⟩ ![]) (bNC : S0.BroadcastsInDim ⟨2, ![N, C]⟩ ![])
  (bM1 : (⟨1, ![M]⟩ : Shape).BroadcastsInDim ⟨2, ![M, 1]⟩ ![0])
  (bMC : (⟨2, ![M, 1]⟩ : Shape).BroadcastsInDim ⟨2, ![M, C]⟩ ![0, 1])
  (wfSv : ScatterDims.WF ⟨1, ![N]⟩ ⟨2, ![M, 1]⟩ ⟨1, ![M]⟩ [] [0] [0] 1)
  (wfGv : GatherDims.WF ⟨1, ![N]⟩ ⟨2, ![M, 1]⟩ ⟨1, ![M]⟩ [] [0] [] [0] [] 1 ![1])
  (wfGr : GatherDims.WF ⟨2, ![N, C]⟩ ⟨2, ![M, 1]⟩ ⟨2, ![M, C]⟩ [1] [0] [] [0] [] 1 ![1, C])
  (wfSr : ScatterDims.WF ⟨2, ![N, C]⟩ ⟨2, ![M, 1]⟩ ⟨2, ![M, C]⟩ [1] [0] [0] 1)

/-- The node a word names: wrapped from the end where negative, then clamped into the table. -/
def node (w : BitVec 32) : Fin N :=
  LibGraph.clampIdx N hN (Scalar.select (IntOp.cmpi .slt w 0#32) (IntOp.addi w nW) w)

/-- The wrap, on a whole vector of words. -/
def wrapv (v : IVec ⟨1, ![M]⟩ 32) : IVec ⟨1, ![M]⟩ 32 :=
  select (cmpi .slt v (broadcastInDim ⟨1, ![M]⟩ ![] bM (constantI S0 32 0#32)))
    (addi v (broadcastInDim ⟨1, ![M]⟩ ![] bM (constantI S0 32 nW))) v

theorem wrapv_apply (v : IVec ⟨1, ![M]⟩ 32) (e : Fin M) :
    wrapv nW bM v (ix1 e) = Scalar.select (IntOp.cmpi .slt (v (ix1 e)) 0#32) (IntOp.addi (v (ix1 e)) nW) (v (ix1 e)) := by
  show Scalar.select (IntOp.cmpi .slt (v (ix1 e)) (broadcastInDim ⟨1, ![M]⟩ ![] bM (constantI S0 32 0#32) (ix1 e)))
      (IntOp.addi (v (ix1 e)) (broadcastInDim ⟨1, ![M]⟩ ![] bM (constantI S0 32 nW) (ix1 e))) (v (ix1 e)) = _
  rw [LibBcast.bcastScalar_apply, LibBcast.bcastScalar_apply]
  rfl

/-- The number of edges arriving at each node, each counted `one`. -/
def degG (one : BitVec 32) (dst : IVec ⟨1, ![M]⟩ 32) : FVec Ideal ⟨1, ![N]⟩ .f32 :=
  Host.scatterAdd (F := Ideal) (LibSegSum.vecScatter N M wfSv)
    (broadcastInDim ⟨1, ![N]⟩ ![] bN (constant (F := Ideal) S0 .f32 0x00000000#32))
    (broadcastInDim ⟨2, ![M, 1]⟩ ![0] bM1 dst)
    (broadcastInDim ⟨1, ![M]⟩ ![] bM (constant (F := Ideal) S0 .f32 one))

theorem degG_apply (one : BitVec 32) (dst : IVec ⟨1, ![M]⟩ 32) (n : Fin N) :
    (degG bM bN bM1 wfSv one dst (ix1 n) : EReal)
      = (0 : EReal) + ∑ e : Fin M, if (dst (ix1 e)).toInt = (n.val : Int) then (Ideal.ofBits .f32 one : EReal) else (0 : EReal) := by
  unfold degG
  rw [LibSegSum.scatterVec_apply, LibBcast.bcastScalar_apply]
  refine congrArg₂ (· + ·) Ideal.ofBits_zero_f32 (Finset.sum_congr rfl fun e _ => ?_)
  rw [LibBcast.bcastVecCol_apply, LibBcast.bcastScalar_apply]
  rfl

/-- What an edge with source word s and target word d sends to channel q of its target. -/
def term (h : FVec Ideal ⟨2, ![N, C]⟩ .f32) (dinv : FVec Ideal ⟨1, ![N]⟩ .f32) (q : Fin C) (s d : BitVec 32) : EReal :=
  (h (ix2 (node hN nW s) q) : EReal) * ((dinv (ix1 (node hN nW s)) : EReal) * (dinv (ix1 (node hN nW d)) : EReal))

/-- The aggregate: every edge's message scattered, with addition, to its target. -/
def aggG (dinv : FVec Ideal ⟨1, ![N]⟩ .f32) (h : FVec Ideal ⟨2, ![N, C]⟩ .f32) (src dst : IVec ⟨1, ![M]⟩ 32) :
    FVec Ideal ⟨2, ![N, C]⟩ .f32 :=
  Host.scatterAdd (F := Ideal) (LibSegSum.rowsScatter N C M wfSr)
    (broadcastInDim ⟨2, ![N, C]⟩ ![] bNC (constant (F := Ideal) S0 .f32 0x00000000#32))
    (broadcastInDim ⟨2, ![M, 1]⟩ ![0] bM1 dst)
    (mulf (Host.gather (LibGraph.rowsGather N C M wfGr) h (broadcastInDim ⟨2, ![M, 1]⟩ ![0] bM1 (wrapv nW bM src)))
      (broadcastInDim ⟨2, ![M, C]⟩ ![0, 1] bMC (broadcastInDim ⟨2, ![M, 1]⟩ ![0] bM1
        (mulf (Host.gather (LibGraph.vecGather N M wfGv) dinv (broadcastInDim ⟨2, ![M, 1]⟩ ![0] bM1 (wrapv nW bM src)))
          (Host.gather (LibGraph.vecGather N M wfGv) dinv (broadcastInDim ⟨2, ![M, 1]⟩ ![0] bM1 (wrapv nW bM dst)))))))

theorem aggG_apply (dinv : FVec Ideal ⟨1, ![N]⟩ .f32) (h : FVec Ideal ⟨2, ![N, C]⟩ .f32) (src dst : IVec ⟨1, ![M]⟩ 32)
    (n : Fin N) (q : Fin C) :
    (aggG nW bM bNC bM1 bMC wfGv wfGr wfSr dinv h src dst (ix2 n q) : EReal)
      = (0 : EReal) + ∑ e : Fin M, if (dst (ix1 e)).toInt = (n.val : Int)
          then term hN nW h dinv q (src (ix1 e)) (dst (ix1 e)) else (0 : EReal) := by
  unfold aggG term
  rw [LibSegSum.scatterRows_apply, LibBcast.bcastScalar_apply]
  refine congrArg₂ (· + ·) Ideal.ofBits_zero_f32 (Finset.sum_congr rfl fun e _ => ?_)
  rw [LibBcast.bcastVecCol_apply]
  refine if_congr Iff.rfl ?_ rfl
  rw [mulf_apply, LibGraph.gatherRows_apply hN, LibBcast.bcastVecCol_apply, LibBcast.bcastCol_apply,
    LibBcast.bcastVecCol_apply, mulf_apply, LibGraph.gatherVec_apply hN, LibGraph.gatherVec_apply hN,
    LibBcast.bcastVecCol_apply, LibBcast.bcastVecCol_apply, wrapv_apply, wrapv_apply]
  rfl

end

end Cert.Gcn

end
-- ==== Proof.LibSage.lean ====
/-
  General facts used for a dense layer whose two matrix products are fused into one.

  * Two matrices of a and b rows stacked one above the other read, at a row, the matrix whose span of rows holds it, at
    the row less the rows above it (`concatRows2_apply_0`, `concatRows2_apply_1`): the row counterpart of two matrices
    laid side by side.
  * Over any commutative additive monoid, a sum over n = a + b positions is the sum over the first a positions plus the
    sum over the last b (`sum_split`).
  * THE BLOCK PRODUCT: at the extended reals, if a row vector of n = a + b entries is [u | v] and a column vector of n
    entries is [s ; t] stacked, then Σ_{k<n} [u|v](k) · [s;t](k) = Σ_{k<a} u(k) · s(k) + Σ_{k<b} v(k) · t(k)
    (`sum_blocks`, stated over the entries' values at the split positions).  Only the monoid structure of addition
    is used, so no entry needs to be finite.
  Imports only the library.
-/
import Idealize.ShloMosaic.PureOps.Ideal.Laws
import Idealize.ShloMosaic.Lib.ValueIdx
import Idealize.ShloMosaic.Lib.Pipeline.Value

noncomputable section

open scoped BigOperators

namespace Cert.LibSage

open Idealize.ShloMosaic Idealize.ShloMosaic.ValueIdx

/-! ## Two matrices stacked -/

section ConcatRows2
variable {α : Type} {C a b n : Nat}
  (x1 : (⟨2, ![a, C]⟩ : Shape).Idx → α) (x2 : (⟨2, ![b, C]⟩ : Shape).Idx → α)
  (h : Shape.Concatenates [(⟨2, ![a, C]⟩ : Shape), ⟨2, ![b, C]⟩] ⟨2, ![n, C]⟩ 0)

/-- Two matrices of a and b rows stacked read, at a row p below a, the first at row p. -/
theorem concatRows2_apply_0 (p : Fin n) (q : Fin C) (p' : Fin a) (hp : p'.val = p.val) :
    concatenate ⟨2, ![n, C]⟩ 0 [⟨⟨2, ![a, C]⟩, x1⟩, ⟨⟨2, ![b, C]⟩, x2⟩] h (ix2 p q) = x1 (ix2 p' q) :=
  concatenate_apply_piece (t := ⟨2, ![n, C]⟩) (0 : Fin 2) [⟨⟨2, ![a, C]⟩, x1⟩, ⟨⟨2, ![b, C]⟩, x2⟩] h (ix2 p q) 0 (by simp)
    ⟨2, ![a, C]⟩ x1 rfl rfl 0 rfl (ix2 p' q)
    (fun d hd => by
      match d with
      | ⟨0, _⟩ => exact absurd rfl hd
      | ⟨1, _⟩ => rfl)
    (by show 0 + p'.val = p.val; omega)

/-- At a row a + p', the second at row p'. -/
theorem concatRows2_apply_1 (p : Fin n) (q : Fin C) (p' : Fin b) (hp : a + p'.val = p.val) :
    concatenate ⟨2, ![n, C]⟩ 0 [⟨⟨2, ![a, C]⟩, x1⟩, ⟨⟨2, ![b, C]⟩, x2⟩] h (ix2 p q) = x2 (ix2 p' q) :=
  concatenate_apply_piece (t := ⟨2, ![n, C]⟩) (0 : Fin 2) [⟨⟨2, ![a, C]⟩, x1⟩, ⟨⟨2, ![b, C]⟩, x2⟩] h (ix2 p q) 1 (by simp)
    ⟨2, ![b, C]⟩ x2 rfl rfl a (by simp) (ix2 p' q)
    (fun d hd => by
      match d with
      | ⟨0, _⟩ => exact absurd rfl hd
      | ⟨1, _⟩ => rfl)
    (by show a + p'.val = p.val; omega)

end ConcatRows2

/-! ## A sum over a + b positions -/

/-- A sum over n = a + b positions is the sum over the first a plus the sum over the last b. -/
theorem sum_split {M : Type*} [AddCommMonoid M] {a b n : Nat} (hn : a + b = n) (f : Fin n → M) :
    ∑ k : Fin n, f k = ∑ k : Fin a, f ⟨k.val, by omega⟩ + ∑ k : Fin b, f ⟨a + k.val, by omega⟩ := by
  subst hn
  rw [Fin.sum_univ_add]
  rfl

/-- The block product: a sum of products over n = a + b positions whose left factors are u on the first a positions
    and v on the last b, and whose right factors are s and t there, is Σ u · s + Σ v · t. -/
theorem sum_blocks {a b n : Nat} (hn : a + b = n) (l r : Fin n → EReal) (u s : Fin a → EReal) (v t : Fin b → EReal)
    (hu : ∀ k : Fin a, l ⟨k.val, by omega⟩ = u k) (hs : ∀ k : Fin a, r ⟨k.val, by omega⟩ = s k)
    (hv : ∀ k : Fin b, l ⟨a + k.val, by omega⟩ = v k) (ht : ∀ k : Fin b, r ⟨a + k.val, by omega⟩ = t k) :
    ∑ k : Fin n, l k * r k = ∑ k : Fin a, u k * s k + ∑ k : Fin b, v k * t k := by
  rw [sum_split hn]
  congr 1
  · exact Finset.sum_congr rfl fun k _ => by rw [hu k, hs k]
  · exact Finset.sum_congr rfl fun k _ => by rw [hv k, ht k]

end Cert.LibSage

end
-- ==== Proof.LibLoops.lean ====
/-
  The laws that join an edge list with its self-loops appended to the same edge list with the self-loop term added by
  hand.

  * The word of a node number k < 2^31 reads back, signed, as k (`iota_toInt`); it is not negative, so the wrap leaves
    it alone, and it is below N, so the clamp leaves it alone: the node it names is k itself (`node_iota`).
  * SUM WITH LOOPS.  Let the long list of T = E + N edges be the E given edges followed by one loop (k, k) per node
    k < N.  For any summand G(source word, target word), the sum over the long list of the summands of the edges whose
    target IS node n equals the same sum over the given edges plus G at the loop of n: of the N loops exactly one
    arrives at n.  Only commutativity and associativity of addition on the extended reals are used.
  * A degree counted with weight 1 per arriving edge, plus 1, is positive (`deg_pos`).
-/
import Idealize.ShloMosaic.PureOps.Ideal.Laws
import Idealize.ShloMosaic.Lib.IdealHost
import proofs.«102632_j64244120814048_2_alg».proof.Proof.LibSage
import proofs.«102632_j64244120814048_2_alg».proof.Proof.LibGcn

noncomputable section

open scoped BigOperators

namespace Cert.Laws

open Idealize.ShloMosaic

/-- A small natural number's 32-bit word, read signed, is the number. -/
theorem iota_toInt (k : Nat) (hk : k < 2 ^ 31) : (BitVec.ofNat 32 k).toInt = (k : Int) := by
  have h1 : (BitVec.ofNat 32 k).toNat = k := by
    rw [BitVec.toNat_ofNat]; exact Nat.mod_eq_of_lt (by omega)
  rw [BitVec.toInt_eq_toNat_cond, h1]
  split
  · rfl
  · rename_i h; exact absurd (by omega) h

/-- The node a node number's own word names is that node. -/
theorem node_iota {N : Nat} (hN : 0 < N) (nW : BitVec 32) (n : Fin N) (hlt : N ≤ 2 ^ 31) :
    Gcn.node hN nW (BitVec.ofNat 32 n.val) = n := by
  have hn : n.val < 2 ^ 31 := lt_of_lt_of_le n.isLt hlt
  have hi : (BitVec.ofNat 32 n.val).toInt = (n.val : Int) := iota_toInt n.val hn
  unfold Gcn.node
  rw [LibGraph.wrapIdx_of_nonneg (BitVec.ofNat 32 n.val) _ 0#32 rfl (by rw [hi]; exact Int.natCast_nonneg _)]
  exact LibGraph.clampIdx_of_landed hN _ n hi

/-- Of the loops, one per node, exactly the loop of n arrives at n. -/
theorem loops_sum {N : Nat} (hlt : N ≤ 2 ^ 31) (G : BitVec 32 → BitVec 32 → EReal) (n : Fin N) :
    (∑ k : Fin N, if (BitVec.ofNat 32 k.val).toInt = (n.val : Int) then G (BitVec.ofNat 32 k.val) (BitVec.ofNat 32 k.val) else 0)
      = G (BitVec.ofNat 32 n.val) (BitVec.ofNat 32 n.val) := by
  rw [Finset.sum_eq_single n]
  · rw [if_pos (iota_toInt n.val (lt_of_lt_of_le n.isLt hlt))]
  · intro k _ hk
    refine if_neg fun h => hk (Fin.ext ?_)
    rw [iota_toInt k.val (lt_of_lt_of_le k.isLt hlt)] at h
    exact Int.ofNat_inj.mp h
  · intro h; exact absurd (Finset.mem_univ n) h

/-- SUM WITH LOOPS (see the header). -/
theorem sum_with_loops {E N T : Nat} (hT : E + N = T) (hlt : N ≤ 2 ^ 31)
    (s d : Fin E → BitVec 32) (sT dT : Fin T → BitVec 32)
    (hs : ∀ e : Fin E, sT ⟨e.val, by omega⟩ = s e) (hd : ∀ e : Fin E, dT ⟨e.val, by omega⟩ = d e)
    (hsl : ∀ k : Fin N, sT ⟨E + k.val, by omega⟩ = BitVec.ofNat 32 k.val)
    (hdl : ∀ k : Fin N, dT ⟨E + k.val, by omega⟩ = BitVec.ofNat 32 k.val)
    (G : BitVec 32 → BitVec 32 → EReal) (n : Fin N) :
    (∑ e : Fin T, if (dT e).toInt = (n.val : Int) then G (sT e) (dT e) else 0)
      = (∑ e : Fin E, if (d e).toInt = (n.val : Int) then G (s e) (d e) else 0)
        + G (BitVec.ofNat 32 n.val) (BitVec.ofNat 32 n.val) := by
  rw [LibSage.sum_split hT]
  refine congrArg₂ (· + ·) (Finset.sum_congr rfl fun e _ => ?_) ?_
  · rw [hs e, hd e]
  · rw [← loops_sum hlt G n]
    exact Finset.sum_congr rfl fun k _ => by rw [hsl k, hdl k]

/-- Arriving edges counted 1 each, plus 1 for the node itself: positive. -/
theorem deg_pos {ι : Type} (s : Finset ι) (p : ι → Prop) [DecidablePred p] :
    (0 : EReal) < 0 + ((∑ e ∈ s, if p e then (1 : EReal) else 0) + 1) := by
  have hA : (0 : EReal) ≤ ∑ e ∈ s, if p e then (1 : EReal) else 0 :=
    Finset.sum_nonneg fun e _ => by split <;> norm_num
  rw [zero_add]
  calc (0 : EReal) < 1 := by norm_num
    _ ≤ (∑ e ∈ s, if p e then (1 : EReal) else 0) + 1 := le_add_of_nonneg_left hA

end Cert.Laws

end
-- ==== Proof.Bridge.lean ====
/-
  The two programs compute one function.

  Write s(e), d(e) for the source and target words of the E = 1600000 given edges, h = x · Wᵀ, and g(w) for the node
  a word names (wrapped where negative, clamped into the table).

  * The first program adds the self-loops by hand:  deg = (#edges arriving) + 1,  dinv = deg^(-1/2),
        agg(n, q) = [0 + Σ_{e<E} [d e = n] · h(g(s e), q) · (dinv(g(s e)) · dinv(g(d e)))]  +  h(n, q) · (dinv n · dinv n).
  * The second appends one loop (k, k) per node to the edge list, T = E + 100000 edges in all, counts degrees over the
    long list and guards the inverse root:  dinv' = where(deg' > 0, deg'^(-1/2), 0),
        agg'(n, q) = 0 + Σ_{e<T} [d' e = n] · h(g(s' e), q) · (dinv'(g(s' e)) · dinv'(g(d' e))).
  By SUM WITH LOOPS the long sum is the short one plus the summand at the loop of n; the word of n names n itself, so
  that summand is h(n, q) · (dinv' n · dinv' n).  The same law with summand 1 gives deg' = deg (up to the grouping of
  the additions), which is positive, so the guard always takes the inverse root and dinv' = dinv.  What remains is
  the regrouping  0 + (B + L) = (0 + B) + L.  Bias and slope are then applied by the same lines in both programs.
  No step distributes a product over a sum: nothing needs the inputs to be finite.
-/
import proofs.«102632_j64244120814048_2_alg».proof.Proof.LibGcn
import proofs.«102632_j64244120814048_2_alg».proof.Proof.LibLoops
import proofs.«102632_j64244120814048_2_alg».proof.Proof.KerTailDefs
import proofs.«102632_j64244120814048_2_alg».proof.Proof.KerMatmul
import proofs.«102632_j64244120814048_2_alg».proof.Proof.RefRead
import Idealize.ShloMosaic.Lib.IdealHost

noncomputable section

open scoped BigOperators

namespace Cert.Bridge

open Idealize.ShloMosaic Idealize.ShloMosaic.ValueIdx
open Cert.KernelIdeal.Tail Cert.ReferenceIdeal.ReadP

/-- The number of nodes as a word, and the float word of 1. -/
abbrev nW : BitVec 32 := 100000#32
abbrev oneW : BitVec 32 := 0x3F800000#32
theorem hN : 0 < 100000 := by decide
theorem hlt : 100000 ≤ 2 ^ 31 := by norm_num

/-- Small facts about single values, stated over variables. -/
theorem sel_one {α : Type} (a b : α) : Scalar.select 1#1 a b = a := if_pos rfl
theorem cmp_pos (a : EReal) (h : 0 < a) : FloatOps.cmpf (F := Ideal) (φ := .f32) .ogt a (0 : EReal) = 1#1 := by
  show Ideal.cmp .ogt a 0 = 1#1
  simp [Ideal.cmp, h]
theorem hostRsqrt_apply {F : FTy → Type} [FloatOps F] {s : Shape} {φ : FTy} (v : FVec F s φ) (i : s.Idx) :
    Host.rsqrt v i = FloatOps.hostUnary .rsqrt (v i) := rfl

theorem extf_apply {s : Shape} (v : FVec Ideal s .bf16) (hlt : FTy.bits .bf16 < FTy.bits .f32) (i : s.Idx) :
    extf (F := Ideal) .f32 v hlt i = v i := rfl

/-- The node a word names. -/
abbrev nodeOf (w : BitVec 32) : Fin 100000 := Gcn.node hN nW w

/-! ## The first program's pieces in the general form -/

theorem sent_eq (ei : EdgeList) (h : NodeTab) :
    sentOf ei h = Gcn.aggG (N := 100000) (C := 128) (M := 1600000) nW Cert.KernelIdeal.Gen.bcast_S_S1600000 Cert.KernelIdeal.Gen.bcast_S_S100000x128
      Cert.KernelIdeal.Gen.bcast_S1600000_S1600000x1_0 Cert.KernelIdeal.Gen.bcast_S1600000x1_S1600000x128_0_1
      Cert.KernelIdeal.Gen.gather_S100000_S1600000x1_S1600000_n_0_n_n_0_1_1_wf Cert.KernelIdeal.Gen.gather_S100000x128_S1600000x1_S1600000x128_1_0_n_n_0_1_1128_wf
      Cert.KernelIdeal.Gen.scatter_S100000x128_S1600000x1_S1600000x128_1_0_0_1_wf (dinvOf ei) h (srcOf ei) (dstOf ei) := rfl

theorem deg_eq (ei : EdgeList) :
    degOf ei = addf (F := Ideal) (Gcn.degG (N := 100000) (M := 1600000) Cert.KernelIdeal.Gen.bcast_S_S1600000 Cert.KernelIdeal.Gen.bcast_S_S100000 Cert.KernelIdeal.Gen.bcast_S1600000_S1600000x1_0
        Cert.KernelIdeal.Gen.scatter_S100000_S1600000x1_S1600000_n_0_0_1_wf oneW (dstOf ei))
      (broadcastInDim ⟨1, ![100000]⟩ ![] Cert.KernelIdeal.Gen.bcast_S_S100000 (constant (F := Ideal) Gcn.S0 .f32 oneW)) := rfl

/-! ## The second program's pieces in the general form -/

theorem ref_sent_eq (x0 : FVec Ideal ⟨2, ![100000, 256]⟩ .f32) (x1 : IVec ⟨2, ![2, 1600000]⟩ 32) (x2 : FVec Ideal ⟨2, ![128, 256]⟩ .f32) :
    val_main_v44 (F := Ideal) x0 x1 x2 = Gcn.aggG (N := 100000) (C := 128) (M := 1700000) nW Cert.ReferenceIdeal.Gen.bcast_S_S1700000 Cert.ReferenceIdeal.Gen.bcast_S_S100000x128
      Cert.ReferenceIdeal.Gen.bcast_S1700000_S1700000x1_0 Cert.ReferenceIdeal.Gen.bcast_S1700000x1_S1700000x128_0_1
      Cert.ReferenceIdeal.Gen.gather_S100000_S1700000x1_S1700000_n_0_n_n_0_1_1_wf Cert.ReferenceIdeal.Gen.gather_S100000x128_S1700000x1_S1700000x128_1_0_n_n_0_1_1128_wf
      Cert.ReferenceIdeal.Gen.scatter_S100000x128_S1700000x1_S1700000x128_1_0_0_1_wf (val_main_v16 (F := Ideal) x1) (val_main_v1 (F := Ideal) x0 x2)
      (val_main_v5 (F := Ideal) x1) (val_main_v8 (F := Ideal) x1) := rfl

theorem ref_deg_eq (x1 : IVec ⟨2, ![2, 1600000]⟩ 32) :
    val_main_v12 (F := Ideal) x1 = Gcn.degG (N := 100000) (M := 1700000) Cert.ReferenceIdeal.Gen.bcast_S_S1700000 Cert.ReferenceIdeal.Gen.bcast_S_S100000 Cert.ReferenceIdeal.Gen.bcast_S1700000_S1700000x1_0
        Cert.ReferenceIdeal.Gen.scatter_S100000_S1700000x1_S1700000_n_0_0_1_wf oneW (val_main_v8 (F := Ideal) x1) := rfl

/-! ## The long edge list: the given edges, then the loops -/

/-- Two vectors joined end to end read, below the first's length, the first. -/
theorem join_lo {α : Type} {a b n : Nat} (x1 : (⟨1, ![a]⟩ : Shape).Idx → α) (x2 : (⟨1, ![b]⟩ : Shape).Idx → α)
    (h : Shape.Concatenates [(⟨1, ![a]⟩ : Shape), ⟨1, ![b]⟩] ⟨1, ![n]⟩ 0) (p : Fin n) (p' : Fin a) (hp : p'.val = p.val) :
    concatenate ⟨1, ![n]⟩ 0 [⟨⟨1, ![a]⟩, x1⟩, ⟨⟨1, ![b]⟩, x2⟩] h (ix1 p) = x1 (ix1 p') :=
  concatenate_apply_piece (t := ⟨1, ![n]⟩) (0 : Fin 1) [⟨⟨1, ![a]⟩, x1⟩, ⟨⟨1, ![b]⟩, x2⟩] h (ix1 p) 0 (by simp)
    ⟨1, ![a]⟩ x1 rfl rfl 0 rfl (ix1 p')
    (fun d hd => absurd (Subsingleton.elim _ _) hd)
    (by show 0 + p'.val = p.val; omega)

/-- And past it, the second. -/
theorem join_hi {α : Type} {a b n : Nat} (x1 : (⟨1, ![a]⟩ : Shape).Idx → α) (x2 : (⟨1, ![b]⟩ : Shape).Idx → α)
    (h : Shape.Concatenates [(⟨1, ![a]⟩ : Shape), ⟨1, ![b]⟩] ⟨1, ![n]⟩ 0) (p : Fin n) (p' : Fin b) (hp : a + p'.val = p.val) :
    concatenate ⟨1, ![n]⟩ 0 [⟨⟨1, ![a]⟩, x1⟩, ⟨⟨1, ![b]⟩, x2⟩] h (ix1 p) = x2 (ix1 p') :=
  concatenate_apply_piece (t := ⟨1, ![n]⟩) (0 : Fin 1) [⟨⟨1, ![a]⟩, x1⟩, ⟨⟨1, ![b]⟩, x2⟩] h (ix1 p) 1 (by simp)
    ⟨1, ![b]⟩ x2 rfl rfl a (by simp) (ix1 p')
    (fun d hd => absurd (Subsingleton.elim _ _) hd)
    (by show a + p'.val = p.val; omega)

section
variable (x1 : IVec ⟨2, ![2, 1600000]⟩ 32)

/-- The long list's sources and targets: on the given edges the given words, on the loops the node's own word. -/
theorem src_lo (e : Fin 1600000) : val_main_v5 (F := Ideal) x1 (ix1 (⟨e.val, by omega⟩ : Fin 1700000)) = srcOf x1 (ix1 e) :=
  join_lo _ _ _ _ e rfl
theorem dst_lo (e : Fin 1600000) : val_main_v8 (F := Ideal) x1 (ix1 (⟨e.val, by omega⟩ : Fin 1700000)) = dstOf x1 (ix1 e) :=
  join_lo _ _ _ _ e rfl
theorem src_hi (k : Fin 100000) : val_main_v5 (F := Ideal) x1 (ix1 (⟨1600000 + k.val, by omega⟩ : Fin 1700000)) = BitVec.ofNat 32 k.val :=
  join_hi _ _ _ _ k rfl
theorem dst_hi (k : Fin 100000) : val_main_v8 (F := Ideal) x1 (ix1 (⟨1600000 + k.val, by omega⟩ : Fin 1700000)) = BitVec.ofNat 32 k.val :=
  join_hi _ _ _ _ k rfl

/-- SUM WITH LOOPS for the two programs' edge lists. -/
theorem long_sum (G : BitVec 32 → BitVec 32 → EReal) (n : Fin 100000) :
    (∑ e : Fin 1700000, if (val_main_v8 (F := Ideal) x1 (ix1 e)).toInt = (n.val : Int)
        then G (val_main_v5 (F := Ideal) x1 (ix1 e)) (val_main_v8 (F := Ideal) x1 (ix1 e)) else 0)
      = (∑ e : Fin 1600000, if (dstOf x1 (ix1 e)).toInt = (n.val : Int) then G (srcOf x1 (ix1 e)) (dstOf x1 (ix1 e)) else 0)
        + G (BitVec.ofNat 32 n.val) (BitVec.ofNat 32 n.val) :=
  Laws.sum_with_loops (E := 1600000) (N := 100000) (T := 1700000) rfl hlt
    (fun e => srcOf x1 (ix1 e)) (fun e => dstOf x1 (ix1 e))
    (fun e => val_main_v5 (F := Ideal) x1 (ix1 e)) (fun e => val_main_v8 (F := Ideal) x1 (ix1 e))
    (src_lo x1) (dst_lo x1) (src_hi x1) (dst_hi x1) G n

/-! ## Degrees and their inverse roots agree -/

/-- The arriving given edges, counted 1 each. -/
abbrev arrivals (n : Fin 100000) : EReal :=
  ∑ e : Fin 1600000, if (dstOf x1 (ix1 e)).toInt = (n.val : Int) then (1 : EReal) else 0

/-- A scalar constant read at its one index. -/
theorem const_apply (b : BitVec 32) (i : Gcn.S0.Idx) : constant (F := Ideal) Gcn.S0 .f32 b i = Ideal.ofBits .f32 b := rfl

theorem deg_apply (n : Fin 100000) : (degOf x1 (ix1 n) : EReal) = ((0 : EReal) + arrivals x1 n) + 1 := by
  rw [deg_eq, addf_apply, Gcn.degG_apply, LibBcast.bcastScalar_apply, const_apply, Ideal.ofBits_one_f32]

theorem ref_deg_apply (n : Fin 100000) : (val_main_v12 (F := Ideal) x1 (ix1 n) : EReal) = (0 : EReal) + (arrivals x1 n + 1) := by
  rw [ref_deg_eq, Gcn.degG_apply, Ideal.ofBits_one_f32, long_sum x1 (fun _ _ => (1 : EReal)) n]

theorem ref_deg_is_deg (n : Fin 100000) : val_main_v12 (F := Ideal) x1 (ix1 n) = degOf x1 (ix1 n) := by
  rw [ref_deg_apply, deg_apply, add_assoc]

/-- The guarded inverse root of the second program is the plain inverse root of the first. -/
theorem dinv_apply (i : (⟨1, ![100000]⟩ : Shape).Idx) :
    dinvOf x1 i = FloatOps.hostUnary (F := Ideal) .rsqrt (degOf x1 i) := by
  unfold dinvOf
  rw [hostRsqrt_apply]

theorem ref_dinv_eq : val_main_v16 (F := Ideal) x1 = dinvOf x1 := by
  funext i
  obtain ⟨n, rfl⟩ : ∃ n : Fin 100000, i = ix1 n := ⟨i 0, eq_ix1 i⟩
  have hpos : (0 : EReal) < val_main_v12 (F := Ideal) x1 (ix1 n) := by
    rw [ref_deg_apply]; exact Laws.deg_pos _ _
  have h13 : val_main_v13 (F := Ideal) (ix1 n) = 0 :=
    (val_main_v13_apply (F := Ideal) (ix1 n)).trans ((val_main_cst_1_apply (F := Ideal) _).trans Ideal.ofBits_zero_f32)
  rw [val_main_v16_apply, val_main_v14_apply, val_main_v15_apply, h13, cmp_pos _ hpos, sel_one, ref_deg_is_deg, dinv_apply]

end

/-! ## The products agree -/

theorem ref_prod_eq (x0 : FVec Ideal ⟨2, ![100000, 256]⟩ .f32) (x2 : FVec Ideal ⟨2, ![128, 256]⟩ .f32) :
    val_main_v1 (F := Ideal) x0 x2
      = Cert.KernelIdeal.Mat.prod x0 (transpose ⟨2, ![256, 128]⟩ [1, 0] x2 Cert.KernelIdeal.Gen.transposes_S128x256_S256x128_1_0) := by
  funext i
  rw [val_main_v1_apply]
  rfl

/-! ## The aggregates agree -/

theorem agg_eq (x0 : FVec Ideal ⟨2, ![100000, 256]⟩ .f32) (x1 : IVec ⟨2, ![2, 1600000]⟩ 32) (x2 : FVec Ideal ⟨2, ![128, 256]⟩ .f32)
    (h : NodeTab) (hh : val_main_v1 (F := Ideal) x0 x2 = h) :
    addf (F := Ideal) (sentOf x1 h) (selfOf x1 h) = val_main_v44 (F := Ideal) x0 x1 x2 := by
  funext i
  obtain ⟨n, q, rfl⟩ : ∃ (n : Fin 100000) (q : Fin 128), i = ix2 n q := ⟨i 0, i 1, eq_ix2 i⟩
  have hself : (selfOf x1 h (ix2 n q) : EReal)
      = Gcn.term hN nW h (dinvOf x1) q (BitVec.ofNat 32 n.val) (BitVec.ofNat 32 n.val) := by
    unfold Gcn.term selfOf
    rw [Laws.node_iota hN nW n hlt, mulf_apply, LibBcast.bcastCol_apply, LibBcast.bcastVecCol_apply, mulf_apply, extf_apply]
  have hL : (addf (F := Ideal) (sentOf x1 h) (selfOf x1 h) (ix2 n q) : EReal)
      = ((0 : EReal) + ∑ e : Fin 1600000, if (dstOf x1 (ix1 e)).toInt = (n.val : Int)
          then Gcn.term hN nW h (dinvOf x1) q (srcOf x1 (ix1 e)) (dstOf x1 (ix1 e)) else (0 : EReal))
        + Gcn.term hN nW h (dinvOf x1) q (BitVec.ofNat 32 n.val) (BitVec.ofNat 32 n.val) := by
    rw [addf_apply, hself, sent_eq, Gcn.aggG_apply hN]
  have hR : (val_main_v44 (F := Ideal) x0 x1 x2 (ix2 n q) : EReal)
      = (0 : EReal) + ((∑ e : Fin 1600000, if (dstOf x1 (ix1 e)).toInt = (n.val : Int)
          then Gcn.term hN nW h (dinvOf x1) q (srcOf x1 (ix1 e)) (dstOf x1 (ix1 e)) else (0 : EReal))
        + Gcn.term hN nW h (dinvOf x1) q (BitVec.ofNat 32 n.val) (BitVec.ofNat 32 n.val)) := by
    rw [ref_sent_eq, Gcn.aggG_apply hN, ref_dinv_eq, hh, long_sum x1 (Gcn.term hN nW h (dinvOf x1) q) n]
  rw [hL, hR, add_assoc]

/-! ## The results agree -/

theorem act_eq (x0 : FVec Ideal ⟨2, ![100000, 256]⟩ .f32) (x1 : IVec ⟨2, ![2, 1600000]⟩ 32) (x2 : FVec Ideal ⟨2, ![128, 256]⟩ .f32)
    (x3 x4 : ChanVec) :
    val_main_v53 (F := Ideal) x0 x1 x2 x3 x4 = actOf (val_main_v44 (F := Ideal) x0 x1 x2) x3 x4 := rfl

/-- THE BRIDGE: the first program's tail applied to the grid's product is the second program's result. -/
theorem result_eq (x0 : FVec Ideal ⟨2, ![100000, 256]⟩ .f32) (x1 : IVec ⟨2, ![2, 1600000]⟩ 32) (x2 : FVec Ideal ⟨2, ![128, 256]⟩ .f32)
    (x3 x4 : ChanVec) :
    outOf x1 (Cert.KernelIdeal.Mat.prod x0 (transpose ⟨2, ![256, 128]⟩ [1, 0] x2 Cert.KernelIdeal.Gen.transposes_S128x256_S256x128_1_0)) x3 x4
      = val_main_v53 (F := Ideal) x0 x1 x2 x3 x4 := by
  rw [act_eq]
  unfold outOf
  rw [agg_eq x0 x1 x2 _ (ref_prod_eq x0 x2)]

end Cert.Bridge

end
-- ==== Proof.lean ====
/-
  The certificate of a graph-convolution layer: a dense product h = x · Wᵀ, aggregation of h over the edges with the
  symmetric degree normalisation, a bias, and a per-channel slope on the entries that are not positive.

  The first program computes h on a grid of ten row blocks and adds each node's self-loop term h(n) · dinv(n)² by
  hand; the reference computes h with one host product and appends one loop per node to the edge list.  At the ideal
  values both end with the same array (Bridge: the long sum over given edges and loops is the short sum plus the loop's
  summand, the degrees agree and are positive, so the reference's guarded inverse root is the plain one).

  * The three frames: each program terminates, faults nowhere and leaves its five arguments as launched
    (FrameK / FrameKI for the two printings of the first program; the reference's run read back for the third).
  * The idealised printing rewrote nothing, so there is nothing to preserve.
  * The equivalence: the first program's result buffer ends at the reference's result function of the arguments
    (KerRun, then Bridge), and the reference's at the same function (its run read one operation at a time).
-/
import proofs.«102632_j64244120814048_2_alg».proof.Defs
import proofs.«102632_j64244120814048_2_alg».proof.Proof.Gen.Kernel
import proofs.«102632_j64244120814048_2_alg».proof.Proof.Gen.Kernel.Skeleton
import proofs.«102632_j64244120814048_2_alg».proof.Proof.Gen.Kernel.Launch
import proofs.«102632_j64244120814048_2_alg».proof.Proof.Gen.Kernel.Points
import proofs.«102632_j64244120814048_2_alg».proof.Proof.Gen.KernelIdeal
import proofs.«102632_j64244120814048_2_alg».proof.Proof.Gen.KernelIdeal.Skeleton
import proofs.«102632_j64244120814048_2_alg».proof.Proof.Gen.KernelIdeal.Launch
import proofs.«102632_j64244120814048_2_alg».proof.Proof.Gen.KernelIdeal.Points
import proofs.«102632_j64244120814048_2_alg».proof.Proof.Gen.ReferenceIdeal
import proofs.«102632_j64244120814048_2_alg».proof.Proof.Gen.Pre_finite_inputs
import proofs.«102632_j64244120814048_2_alg».proof.Proof.FrameK
import proofs.«102632_j64244120814048_2_alg».proof.Proof.FrameKI
import proofs.«102632_j64244120814048_2_alg».proof.Proof.RefRun
import proofs.«102632_j64244120814048_2_alg».proof.Proof.RefRead
import proofs.«102632_j64244120814048_2_alg».proof.Proof.KerRun
import proofs.«102632_j64244120814048_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the reference's result function of the (agreeing) arguments. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  show _ = Cert.KernelIdeal.Run.result m c
  unfold Cert.KernelIdeal.Run.result
  rw [Cert.ReferenceIdeal.ReadP.val_main_v53_eq, (hagree c).1, (hagree c).2.1, (hagree c).2.2.1, (hagree c).2.2.2.1, (hagree c).2.2.2.2]
  exact (Cert.Bridge.result_eq _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
